-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S1x2048x2048 .f32) (main_arg1 : FVec F S8192x2048 .f32) (main_arg2 : FVec F S8192x2048 .f32) (main_arg3 : FVec F S2048x8192 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S1x2048x2048 : Shape := ⟨3, ![1, 2048, 2048]⟩
abbrev S8192x2048 : Shape := ⟨2, ![8192, 2048]⟩
abbrev S2048x8192 : Shape := ⟨2, ![2048, 8192]⟩
abbrev S2048x2048 : Shape := ⟨2, ![2048, 2048]⟩
abbrev S256x2048 : Shape := ⟨2, ![256, 2048]⟩
abbrev S2048x512 : Shape := ⟨2, ![2048, 512]⟩
abbrev S2048x256 : Shape := ⟨2, ![2048, 256]⟩
abbrev S256x512 : Shape := ⟨2, ![256, 512]⟩

abbrev nBuf : Space → Nat
  | .hbm => 7
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S2048x2048, .f32⟩
  | .hbm, ⟨5, _⟩ => ⟨S2048x2048, .f32⟩
  | .hbm, ⟨6, _⟩ => ⟨S1x2048x2048, .f32⟩
  | .local _ .vmem, ⟨0, _⟩ => ⟨S2048x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S2048x512, .f32⟩
  | .local _ .vmem, ⟨6, _⟩ => ⟨S2048x512, .f32⟩
  | .local _ .vmem, ⟨7, _⟩ => ⟨S2048x2048, .f32⟩
  | .local _ .vmem, ⟨8, _⟩ => ⟨S2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![1, 32], ![false, false]⟩

def k0_off1 (i : grid0.Coords) : Fin 2 → Nat :=
  let c0_9 : Index := 0#32
  let arg1 : BitVec 32 := BitVec.ofNat 32 (i 1).val
  let c2_i32 : BitVec 32 := 2#32
  let c0_i32 : BitVec 32 := 0#32
  let v13 : BitVec 1 := Scalar.cmpi .eq c2_i32 c0_i32
  let c1_i32 : BitVec 32 := 1#32
  let v14 : BitVec 32 := Scalar.select v13 c1_i32 c2_i32
  let v15 : BitVec 32 := Scalar.remsi arg1 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c256_i32 : BitVec 32 := 256#32
  let v23 : BitVec 32 := Scalar.muli v22 c256_i32
  let v24 : Index := Scalar.indexCast v23
  ![0, v24.toNat]
def k0_cond1 (i : grid0.Coords) : BitVec 1 :=
  let arg1 : BitVec 32 := BitVec.ofNat 32 (i 1).val
  let c0_i32_10 : BitVec 32 := 0#32
  let v28 : BitVec 1 := Scalar.cmpi .eq arg1 c0_i32_10
  let v29 : BitVec 32 := Scalar.extui v28
  let c0_i32_11 : BitVec 32 := 0#32
  let v30 : BitVec 1 := Scalar.cmpi .ne v29 c0_i32_11
  v30

def k0_cond2 (i : grid0.Coords) : BitVec 1 :=
  let arg1 : BitVec 32 := BitVec.ofNat 32 (i 1).val
  let c2_i32_12 : BitVec 32 := 2#32
  let c0_i32_13 : BitVec 32 := 0#32
  let v31 : BitVec 1 := Scalar.cmpi .eq c2_i32_12 c0_i32_13
  let c1_i32_14 : BitVec 32 := 1#32
  let v32 : BitVec 32 := Scalar.select v31 c1_i32_14 c2_i32_12
  let v33 : BitVec 32 := Scalar.remsi arg1 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c1_i32_18 : BitVec 32 := 1#32
  let v41 : BitVec 1 := Scalar.cmpi .eq v40 c1_i32_18
  let v42 : BitVec 32 := Scalar.extui v41
  let c0_i32_19 : BitVec 32 := 0#32
  let v43 : BitVec 1 := Scalar.cmpi .ne v42 c0_i32_19
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S1x2048x2048_S2048x2048 : S1x2048x2048.ShapeCasts S2048x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  inb_S2048x512_S256x512_0_0 : ∀ a, (![0, 0] : Fin 2 → Nat) a + S256x512.size a ≤ S2048x512.size a
  h_S256x512 : 0 < S256x512.numel
  inb_S2048x2048_S2048x256_0_0 : ∀ a, (![0, 0] : Fin 2 → Nat) a + S2048x256.size a ≤ S2048x2048.size a
  inb_S2048x512_S256x512_256_0 : ∀ a, (![256, 0] : Fin 2 → Nat) a + S256x512.size a ≤ S2048x512.size a
  inb_S2048x2048_S2048x256_0_256 : ∀ a, (![0, 256] : Fin 2 → Nat) a + S2048x256.size a ≤ S2048x2048.size a
  inb_S2048x512_S256x512_512_0 : ∀ a, (![512, 0] : Fin 2 → Nat) a + S256x512.size a ≤ S2048x512.size a
  inb_S2048x2048_S2048x256_0_512 : ∀ a, (![0, 512] : Fin 2 → Nat) a + S2048x256.size a ≤ S2048x2048.size a
  inb_S2048x512_S256x512_768_0 : ∀ a, (![768, 0] : Fin 2 → Nat) a + S256x512.size a ≤ S2048x512.size a
  inb_S2048x2048_S2048x256_0_768 : ∀ a, (![0, 768] : Fin 2 → Nat) a + S2048x256.size a ≤ S2048x2048.size a
  inb_S2048x512_S256x512_1024_0 : ∀ a, (![1024, 0] : Fin 2 → Nat) a + S256x512.size a ≤ S2048x512.size a
  inb_S2048x2048_S2048x256_0_1024 : ∀ a, (![0, 1024] : Fin 2 → Nat) a + S2048x256.size a ≤ S2048x2048.size a
  inb_S2048x512_S256x512_1280_0 : ∀ a, (![1280, 0] : Fin 2 → Nat) a + S256x512.size a ≤ S2048x512.size a
  inb_S2048x2048_S2048x256_0_1280 : ∀ a, (![0, 1280] : Fin 2 → Nat) a + S2048x256.size a ≤ S2048x2048.size a
  inb_S2048x512_S256x512_1536_0 : ∀ a, (![1536, 0] : Fin 2 → Nat) a + S256x512.size a ≤ S2048x512.size a
  inb_S2048x2048_S2048x256_0_1536 : ∀ a, (![0, 1536] : Fin 2 → Nat) a + S2048x256.size a ≤ S2048x2048.size a
  inb_S2048x512_S256x512_1792_0 : ∀ a, (![1792, 0] : Fin 2 → Nat) a + S256x512.size a ≤ S2048x512.size a
  inb_S2048x2048_S2048x256_0_1792 : ∀ a, (![0, 1792] : Fin 2 → Nat) a + S2048x256.size a ≤ S2048x2048.size a
  shapeCasts_S2048x2048_S1x2048x2048 : S2048x2048.ShapeCasts S1x2048x2048
  dot_S2048x2048_S256x2048_S2048x256_1_1_0_0_n_n_wf : DotDims.WF S2048x2048 S256x2048 S2048x256 [1] [1] [0] [0] [] []
  dot_S2048x512_S256x512_S2048x256_1_1_0_0_n_n_wf : DotDims.WF S2048x512 S256x512 S2048x256 [1] [1] [0] [0] [] []
  hrank0 : 0 < grid0.rank
  k0_off1_inb : ∀ i : grid0.Coords, ∀ a, (k0_off1 i) a + S2048x256.size a ≤ S2048x512.size a
  k0_off1_packedbf16 : ∀ i : grid0.Coords, (Rect.unit (s := S2048x512) (k0_off1 i) S2048x256.size (k0_off1_inb i)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .f32 = 32 ∨ (Rect.block (s := S2048x2048) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .f32 = 32 ∨ (Rect.block (s := S2048x8192) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .f32 = 32 ∨ (Rect.block (s := S2048x2048) S2048x2048.size (cc0_transform_4 i) (hinb0_4 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf

abbrev win0_0 : Pipeline.Window sig grid0 :=
  Pipeline.Window.ofSpec (Memref.whole main_v0) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S1x2048x2048 : Shape := ⟨3, ![1, 2048, 2048]⟩
abbrev S8192x2048 : Shape := ⟨2, ![8192, 2048]⟩
abbrev S2048x8192 : Shape := ⟨2, ![2048, 8192]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .f32⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S8192x2048, .f32⟩
  | .hbm, ⟨20, _⟩ => ⟨S2048x2048, .f32⟩
  | .hbm, ⟨21, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]

class Facts₀ : Prop where
  shapeCasts_S1x2048x2048_S2048x2048 : S1x2048x2048.ShapeCasts S2048x2048
  transposes_S8192x2048_S2048x8192_1_0 : S8192x2048.Transposes [1, 0] S2048x8192
  bcast_S_S2048x8192 : S_.BroadcastsInDim S2048x8192 (![] : Fin 0 → Fin S2048x8192.rank)
  transposes_S2048x8192_S8192x2048_1_0 : S2048x8192.Transposes [1, 0] S8192x2048
  shapeCasts_S2048x2048_S1x2048x2048 : S2048x2048.ShapeCasts S1x2048x2048
  dot_S2048x2048_S2048x8192_S2048x8192_1_0_0_1_n_n_wf : DotDims.WF S2048x2048 S2048x8192 S2048x8192 [1] [0] [0] [1] [] []
  dot_S2048x8192_S8192x2048_S2048x2048_1_0_0_1_n_n_wf : DotDims.WF S2048x8192 S8192x2048 S2048x2048 [1] [0] [0] [1] [] []

variable [Facts₀]

def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S2048x8192_S8192x2048_S2048x2048_1_0_0_1_n_n : DotDims S2048x8192 S8192x2048 S2048x2048 where
  lhsContracting := [1]
  rhsContracting := [0]
  lhsNonContracting := [0]
  rhsNonContracting := [1]
  lhsBatch := []
  rhsBatch := []
  wf := dot_S2048x8192_S8192x2048_S2048x2048_1_0_0_1_n_n_wf

class Facts : Prop extends Facts₀ where

variable [Facts]
-- ==== Proof.BodyKernel.lean ====
import proofs.«150734_g21122649162411_cont_8to1_2030_21_alg».proof.Proof.Gen.Kernel
import proofs.«150734_g21122649162411_cont_8to1_2030_21_alg».proof.Proof.Gen.Kernel.Skeleton
import proofs.«150734_g21122649162411_cont_8to1_2030_21_alg».proof.Proof.Gen.Kernel.Launch
import proofs.«150734_g21122649162411_cont_8to1_2030_21_alg».proof.Proof.Gen.Kernel.Points
import Idealize.ShloMosaic.Lib.Writes
import Idealize.ShloMosaic.Lib.Pipeline.FrameBody
import Idealize.ShloMosaic.Lib.Tactic

noncomputable section

/-
  The kernel body at a symbolic grid point. The grid has 32 points, walked in order; point t works on hidden units
  256·t … 256·t + 255. Every point computes, for its 256 hidden units and all 2048 rows, the hidden value
  (g · logistic g) · u from the whole input block and the point's gate and up weight rows, and stores it into one
  half of a 2048 × 512 scratch: the left half at an even point, the right half at an odd one. Point 0 also zeroes the
  2048 × 2048 output block. An odd point then reads the whole scratch (the two halves written at t − 1 and t) and,
  for each of eight column blocks of 256 output columns, adds to the output block the product of the scratch with
  the matching 256 rows of the point's 2048 × 512 block of down weights. An even point past 0 leaves the output
  block untouched. Stated here: the three kinds of run, each leaving the scratch at one more store and the output
  block at the canonical contents of its stores.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch (the kernel's one scratch operand, whole). -/
abbrev zM : Memref sig .tc .vmem S2048x512 .bf16 := Memref.whole cc0_scratch0

/-- "This is point 0" and "this point is odd", as the body computes them. -/
abbrev C1 (t : Fin cfg0.N) : Prop := k0_cond1 (grid0.coords t) = 1#1
abbrev C2 (t : Fin cfg0.N) : Prop := k0_cond2 (grid0.coords t) = 1#1

omit [FloatOps F] in
theorem c1_iff : ∀ t : Fin cfg0.N, C1 t ↔ t.val = 0 :=
  (by decide +kernel : ∀ t : Fin grid0.N, k0_cond1 (grid0.coords t) = 1#1 ↔ t.val = 0)
omit [FloatOps F] in
theorem c2_iff : ∀ t : Fin cfg0.N, C2 t ↔ t.val % 2 = 1 :=
  (by decide +kernel : ∀ t : Fin grid0.N, k0_cond2 (grid0.coords t) = 1#1 ↔ t.val % 2 = 1)

/-- The scratch half a point stores into starts at column 0 at an even point and at column 256 at an odd one. -/
theorem off1_odd : ∀ t : Fin cfg0.N, t.val % 2 = 1 → k0_off1 (grid0.coords t) = ![0, 256] :=
  (by decide +kernel : ∀ t : Fin grid0.N, t.val % 2 = 1 → k0_off1 (grid0.coords t) = ![0, 256])
theorem off1_even : ∀ t : Fin cfg0.N, t.val % 2 = 0 → k0_off1 (grid0.coords t) = ![0, 0] :=
  (by decide +kernel : ∀ t : Fin grid0.N, t.val % 2 = 0 → k0_off1 (grid0.coords t) = ![0, 0])

instance closedOff_odd (t : Fin cfg0.N) [h : Fact (t.val % 2 = 1)] : ClosedOff (k0_off1 (grid0.coords t)) := ⟨![0, 256], off1_odd t h.out⟩
instance closedOff_even (t : Fin cfg0.N) [h : Fact (t.val % 2 = 0)] : ClosedOff (k0_off1 (grid0.coords t)) := ⟨![0, 0], off1_even t h.out⟩

/-! ## The rectangles the body loads and stores through -/

/-- The whole input block, a whole 256-row block of gate or up weights, the whole scratch. -/
abbrev RX : Rect S2048x2048 := Rect.unit (s := S2048x2048) ![0, 0] S2048x2048.size inb_S2048x2048_S2048x2048_0_0
abbrev RW : Rect S256x2048 := Rect.unit (s := S256x2048) ![0, 0] S256x2048.size inb_S256x2048_S256x2048_0_0
abbrev RZ : Rect S2048x512 := Rect.unit (s := S2048x512) ![0, 0] S2048x512.size inb_S2048x512_S2048x512_0_0
/-- The half of the scratch point `t` stores into. -/
abbrev zRect (t : Fin cfg0.N) : Rect S2048x512 := Rect.unit (s := S2048x512) (k0_off1 (grid0.coords t)) S2048x256.size (k0_off1_inb (grid0.coords t))
/-- Output column block j (columns 256·j … 256·j + 255) and the rows 256·j … of the down-weight block. -/
abbrev oR0 : Rect S2048x2048 := Rect.unit (s := S2048x2048) ![0, 0] S2048x256.size inb_S2048x2048_S2048x256_0_0
abbrev wR0 : Rect S2048x512 := Rect.unit (s := S2048x512) ![0, 0] S256x512.size inb_S2048x512_S256x512_0_0
abbrev oR1 : Rect S2048x2048 := Rect.unit (s := S2048x2048) ![0, 256] S2048x256.size inb_S2048x2048_S2048x256_0_256
abbrev wR1 : Rect S2048x512 := Rect.unit (s := S2048x512) ![256, 0] S256x512.size inb_S2048x512_S256x512_256_0
abbrev oR2 : Rect S2048x2048 := Rect.unit (s := S2048x2048) ![0, 512] S2048x256.size inb_S2048x2048_S2048x256_0_512
abbrev wR2 : Rect S2048x512 := Rect.unit (s := S2048x512) ![512, 0] S256x512.size inb_S2048x512_S256x512_512_0
abbrev oR3 : Rect S2048x2048 := Rect.unit (s := S2048x2048) ![0, 768] S2048x256.size inb_S2048x2048_S2048x256_0_768
abbrev wR3 : Rect S2048x512 := Rect.unit (s := S2048x512) ![768, 0] S256x512.size inb_S2048x512_S256x512_768_0
abbrev oR4 : Rect S2048x2048 := Rect.unit (s := S2048x2048) ![0, 1024] S2048x256.size inb_S2048x2048_S2048x256_0_1024
abbrev wR4 : Rect S2048x512 := Rect.unit (s := S2048x512) ![1024, 0] S256x512.size inb_S2048x512_S256x512_1024_0
abbrev oR5 : Rect S2048x2048 := Rect.unit (s := S2048x2048) ![0, 1280] S2048x256.size inb_S2048x2048_S2048x256_0_1280
abbrev wR5 : Rect S2048x512 := Rect.unit (s := S2048x512) ![1280, 0] S256x512.size inb_S2048x512_S256x512_1280_0
abbrev oR6 : Rect S2048x2048 := Rect.unit (s := S2048x2048) ![0, 1536] S2048x256.size inb_S2048x2048_S2048x256_0_1536
abbrev wR6 : Rect S2048x512 := Rect.unit (s := S2048x512) ![1536, 0] S256x512.size inb_S2048x512_S256x512_1536_0
abbrev oR7 : Rect S2048x2048 := Rect.unit (s := S2048x2048) ![0, 1792] S2048x256.size inb_S2048x2048_S2048x256_0_1792
abbrev wR7 : Rect S2048x512 := Rect.unit (s := S2048x512) ![1792, 0] S256x512.size inb_S2048x512_S256x512_1792_0

/-! ## What the stores hold -/

/-- The 2048 × 256 block of hidden values a point computes from the input block and its gate and up weight rows. -/
abbrev zPay (x : Vec F S2048x2048 .f32) (wg wu : Vec F S256x2048 .f32) : Vec F S2048x256 .bf16 :=
  k0_pay9 (View.ld x RX) (View.ld wg RW) (View.ld wu RW)
/-- A point's one store into the scratch. -/
abbrev zPieces (t : Fin cfg0.N) (x : Vec F S2048x2048 .f32) (wg wu : Vec F S256x2048 .f32) : List (View.Piece (Elt F) S2048x512 .bf16) :=
  [⟨zRect t, zPay x wg wu⟩]
/-- What an odd point's load of the whole scratch reads, the scratch having held `fz` before the point's store. -/
abbrev zRead (t : Fin cfg0.N) (fz : BufTy.Contents (Elt F) zM.view.ty) (x : Vec F S2048x2048 .f32) (wg wu : Vec F S256x2048 .f32) : Vec F S2048x512 .bf16 :=
  View.readAt (Elt F) zM.view RZ.toLoadRect (zM.view.writes (Elt F) fz (zPieces t x wg wu))

/-- The output block after point 0's zeroing. -/
abbrev zeroOut : Vec F S2048x2048 .f32 := View.canon [⟨RX, k0_pay10 (F := F)⟩]
/-- The output block after an odd point: each column block of what it held (`o`) plus the scratch `V` against the
    matching rows of the down-weight block `wd`. -/
abbrev downPieces (V : Vec F S2048x512 .bf16) (wd : Vec F S2048x512 .f32) (o : Vec F S2048x2048 .f32) : List (View.Piece (Elt F) S2048x2048 .f32) :=
  [⟨oR7, k0_pay8 V (View.ld wd wR7) (View.ld o oR7)⟩,
   ⟨oR6, k0_pay7 V (View.ld wd wR6) (View.ld o oR6)⟩,
   ⟨oR5, k0_pay6 V (View.ld wd wR5) (View.ld o oR5)⟩,
   ⟨oR4, k0_pay5 V (View.ld wd wR4) (View.ld o oR4)⟩,
   ⟨oR3, k0_pay4 V (View.ld wd wR3) (View.ld o oR3)⟩,
   ⟨oR2, k0_pay3 V (View.ld wd wR2) (View.ld o oR2)⟩,
   ⟨oR1, k0_pay2 V (View.ld wd wR1) (View.ld o oR1)⟩,
   ⟨oR0, k0_pay1 V (View.ld wd wR0) (View.ld o oR0)⟩]
abbrev downOut (V : Vec F S2048x512 .bf16) (wd : Vec F S2048x512 .f32) (o : Vec F S2048x2048 .f32) : Vec F S2048x2048 .f32 :=
  View.canon (downPieces V wd o)

set_option maxRecDepth 16384 in
omit [FloatOps F] in
/-- The eight column blocks tile the output block; the whole-block store covers it. -/
theorem coverDown (p0 p1 p2 p3 p4 p5 p6 p7 : Vec F S2048x256 .f32) (y : S2048x2048.Idx) :
    ∃ pc ∈ ([⟨oR7, p7⟩, ⟨oR6, p6⟩, ⟨oR5, p5⟩, ⟨oR4, p4⟩, ⟨oR3, p3⟩, ⟨oR2, p2⟩, ⟨oR1, p1⟩, ⟨oR0, p0⟩] : List (View.Piece (Elt F) S2048x2048 .f32)), y ∈ pc.1.set :=
  View.cover_of_tiled [⟨oR7, p7⟩, ⟨oR6, p6⟩, ⟨oR5, p5⟩, ⟨oR4, p4⟩, ⟨oR3, p3⟩, ⟨oR2, p2⟩, ⟨oR1, p1⟩, ⟨oR0, p0⟩] S2048x256.size (by rfl) y
set_option maxRecDepth 16384 in
omit [FloatOps F] in
theorem coverZero (p : Vec F S2048x2048 .f32) (y : S2048x2048.Idx) :
    ∃ pc ∈ ([⟨RX, p⟩] : List (View.Piece (Elt F) S2048x2048 .f32)), y ∈ pc.1.set :=
  View.cover_of_tiled [⟨RX, p⟩] S2048x2048.size (by rfl) y

section Runs

variable (c : Dev nD) (t : Fin cfg0.N)
  (M2 : Memref sig .tc .vmem S2048x2048 .f32) (h2 : M2.IsWhole)
  (M3 : Memref sig .tc .vmem S256x2048 .f32) (h3 : M3.IsWhole)
  (M4 : Memref sig .tc .vmem S256x2048 .f32) (h4 : M4.IsWhole)
  (M5 : Memref sig .tc .vmem S2048x512 .f32) (h5 : M5.IsWhole)
  (M6 : Memref sig .tc .vmem S2048x2048 .f32) (h6 : M6.IsWhole)
  (x : Vec F S2048x2048 .f32) (wg wu : Vec F S256x2048 .f32) (wd : Vec F S2048x512 .f32)
  (o : Vec F S2048x2048 .f32) (fz : BufTy.Contents (Elt F) zM.view.ty)

local notation "BODY" => cc0__swiglu_body (grid0.coords t) M2 h2 M3 h3 M4 h4 M5 h5 M6 h6 (Memref.whole cc0_scratch0) (Memref.isWhole_whole _)
local notation "INS" => iprop(owns (c : Thread nD τ) M2 fullShare x ∗ owns (c : Thread nD τ) M3 fullShare wg ∗ owns (c : Thread nD τ) M4 fullShare wu ∗ owns (c : Thread nD τ) M5 fullShare wd)
local notation "ZPRE" => ((zM.view.loc (c : Thread nD τ)) ↦[zM.view.set]{fullShare} fz)
local notation "ZPOST" => ((zM.view.loc (c : Thread nD τ)) ↦[zM.view.set]{fullShare} zM.view.writes (Elt F) fz (zPieces t x wg wu))

/-- An odd point: the scratch gets the point's store; the output block, at `o`, ends at `downOut` of the scratch as read. -/
theorem run_odd (hC1 : ¬ C1 t) (hC2 : C2 t) (Q : PUnit → sProp 𝕄) :
    iprop(INS ∗ owns (c : Thread nD τ) M6 fullShare o ∗ ZPRE
      ∗ (iprop(INS ∗ owns (c : Thread nD τ) M6 fullShare (downOut (zRead t fz x wg wu) wd o) ∗ ZPOST) -∗ Q ⟨⟩))
      ⊢ wp frame (wpE (defs₀ (F := F)) Variants.none c none) Set.univ BODY Q := by
  haveI : Fact (t.val % 2 = 1) := ⟨(c2_iff t).mp hC2⟩
  unfold owns
  iintro ⟨⟨⟨%f2, %hf2, H2⟩, ⟨%f3, %hf3, H3⟩, ⟨%f4, %hf4, H4⟩, ⟨%f5, %hf5, H5⟩⟩, ⟨%f6, %hf6, H6⟩, Hz, Hk⟩
  subst hf2 hf3 hf4 hf5 hf6
  sl_exec! (disch := assumption)
  sl_step
  iapply Hk
  isplitl [H2 H3 H4 H5]
  · isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro; exact View.read_writes_eq_canon _ _ _ (coverDown _ _ _ _ _ _ _ _)
  iexact Hz

/-- Point 0: the scratch gets the point's store; the output block, at anything, ends zeroed. -/
theorem run_zero (hC1 : C1 t) (hC2 : ¬ C2 t) (Q : PUnit → sProp 𝕄) :
    iprop(INS ∗ (∃ d, owns (c : Thread nD τ) M6 fullShare d) ∗ ZPRE
      ∗ (iprop(INS ∗ owns (c : Thread nD τ) M6 fullShare (zeroOut (F := F)) ∗ ZPOST) -∗ Q ⟨⟩))
      ⊢ wp frame (wpE (defs₀ (F := F)) Variants.none c none) Set.univ BODY Q := by
  haveI : Fact (t.val % 2 = 0) := ⟨by have := (c2_iff t).not.mp hC2; omega⟩
  unfold owns
  iintro ⟨⟨⟨%f2, %hf2, H2⟩, ⟨%f3, %hf3, H3⟩, ⟨%f4, %hf4, H4⟩, ⟨%f5, %hf5, H5⟩⟩, ⟨%d6, %f6, %hf6, H6⟩, Hz, Hk⟩
  subst hf2 hf3 hf4 hf5
  sl_exec! (disch := assumption)
  sl_step
  iapply Hk
  isplitl [H2 H3 H4 H5]
  · isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro; exact View.read_writes_eq_canon _ _ _ (coverZero _)
  iexact Hz

/-- An even point past 0: the scratch gets the point's store; the output block's buffer, held as `O`, is not touched. -/
theorem run_even (hC1 : ¬ C1 t) (hC2 : ¬ C2 t) (O : sProp 𝕄) (Q : PUnit → sProp 𝕄) :
    iprop(INS ∗ O ∗ ZPRE ∗ (iprop(INS ∗ O ∗ ZPOST) -∗ Q ⟨⟩))
      ⊢ wp frame (wpE (defs₀ (F := F)) Variants.none c none) Set.univ BODY Q := by
  haveI : Fact (t.val % 2 = 0) := ⟨by have := (c2_iff t).not.mp hC2; omega⟩
  unfold owns
  iintro ⟨⟨⟨%f2, %hf2, H2⟩, ⟨%f3, %hf3, H3⟩, ⟨%f4, %hf4, H4⟩, ⟨%f5, %hf5, H5⟩⟩, HO, Hz, Hk⟩
  subst hf2 hf3 hf4 hf5
  sl_exec! (disch := assumption)
  sl_step
  iapply Hk
  isplitl [H2 H3 H4 H5]
  · isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [HO]; · iexact HO
  iexact Hz

end Runs

end Cert.Kernel.Body

end
-- ==== Proof.RunKernel.lean ====
/-
  The run of the kernel's one region: what the pipeline's buffers hold from point to point, and the launch.
  The output block is staged once for the whole grid and written back after the last point, so the output's staging
  buffer carries the running sum from point to point: zero after point 0, and after each odd point t what it held
  plus the contribution of hidden units 256·(t − 1) … 256·t + 255; an even point past 0 does not touch it. The
  scratch carries the left half of a pair of hidden blocks from an even point to the odd point after it: before an
  odd point it holds some contents with the previous point's block stored over its left half; before an even point
  it holds anything.
-/
import proofs.«150734_g21122649162411_cont_8to1_2030_21_alg».proof.Proof.BodyKernel
import proofs.«150734_g21122649162411_cont_8to1_2030_21_alg».proof.Proof.Gen.Kernel.Frame
import Idealize.ShloMosaic.Lib.Pipeline.FrameSuffix
import Idealize.ShloMosaic.Lib.Pipeline.Value

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem N_32 : cfg0.N = 32 := N_0

omit [FloatOps F] in
theorem hz2 : (![0, 0] : Fin 2 → Nat) = fun _ => 0 := funext fun a => by fin_cases a <;> rfl

/-! ## The scratch as an odd point reads it: two halves -/

theorem zL_inb : ∀ a, (![0, 0] : Fin 2 → Nat) a + S2048x256.size a ≤ S2048x512.size a := by decide
theorem zR_inb : ∀ a, (![0, 256] : Fin 2 → Nat) a + S2048x256.size a ≤ S2048x512.size a := by decide
/-- The left and the right half of the scratch. -/
abbrev zRectL : Rect S2048x512 := Rect.unit (s := S2048x512) ![0, 0] S2048x256.size zL_inb
abbrev zRectR : Rect S2048x512 := Rect.unit (s := S2048x512) ![0, 256] S2048x256.size zR_inb

omit [FloatOps F] in
theorem zRect_odd (t : Fin cfg0.N) (h : t.val % 2 = 1) : zRect t = zRectR := Rect.unit_congr (off1_odd t h) _ _
omit [FloatOps F] in
theorem zRect_even (t : Fin cfg0.N) (h : t.val % 2 = 0) : zRect t = zRectL := Rect.unit_congr (off1_even t h) _ _

omit [FloatOps F] in
/-- A store through a half-wide rectangle of the scratch, restated at equal offsets. -/
theorem halfPiece_congr {off off' : Fin 2 → Nat} (h : off = off') (inb : ∀ a, off a + S2048x256.size a ≤ S2048x512.size a)
    (inb' : ∀ a, off' a + S2048x256.size a ≤ S2048x512.size a) (p : Vec F S2048x256 .bf16) :
    (⟨Rect.unit (s := S2048x512) off S2048x256.size inb, p⟩ : View.Piece (Elt F) S2048x512 .bf16) = ⟨Rect.unit (s := S2048x512) off' S2048x256.size inb', p⟩ := by
  subst h; rfl

set_option maxRecDepth 16384 in
omit [FloatOps F] in
theorem coverHalves (p q : Vec F S2048x256 .bf16) (y : S2048x512.Idx) :
    ∃ pc ∈ ([⟨zRectR, p⟩, ⟨zRectL, q⟩] : List (View.Piece (Elt F) S2048x512 .bf16)), y ∈ pc.1.set :=
  View.cover_of_tiled [⟨zRectR, p⟩, ⟨zRectL, q⟩] S2048x256.size (by rfl) y

/-- The whole scratch as two halves: the right one `p`, the left one `q`. -/
abbrev halves (p q : Vec F S2048x256 .bf16) : Vec F S2048x512 .bf16 := View.canon [⟨zRectR, p⟩, ⟨zRectL, q⟩]

/-- An odd point's load of the whole scratch, the point before having stored its block over the left half of some
    contents: the two points' blocks side by side, whatever those contents were. -/
theorem zRead_halves (t t' : Fin cfg0.N) (ht : t.val % 2 = 1) (ht' : t'.val % 2 = 0) (fz0 : BufTy.Contents (Elt F) zM.view.ty)
    (x x' : Vec F S2048x2048 .f32) (wg wu wg' wu' : Vec F S256x2048 .f32) :
    zRead t (zM.view.writes (Elt F) fz0 (zPieces t' x' wg' wu')) x wg wu = halves (zPay x wg wu) (zPay x' wg' wu') := by
  unfold zRead zPieces halves
  rw [← View.writes_append]
  show View.ld (zM.view.read (Elt F) (zM.view.writes (Elt F) fz0 [⟨zRect t, zPay x wg wu⟩, ⟨zRect t', zPay x' wg' wu'⟩])) RZ = _
  rw [View.ld_unit_zero (S := S2048x512) hz2, halfPiece_congr (off1_odd t ht) _ zR_inb, halfPiece_congr (off1_even t' ht') _ zL_inb]
  exact View.read_writes_eq_canon _ _ _ (coverHalves _ _)

variable (m : (ℓ : Loc nD τ sig) → Buf (Elt F) ℓ) (ρ : Dev nD → PrngReg)

/-! ## What the buffers hold from point to point -/

/-- The block of hidden values point `t` computes and stores into its half of the scratch. -/
def zblk (c : Dev nD) (t : Fin cfg0.N) : Vec F S2048x256 .bf16 := zPay (iblk m c 0 t) (iblk m c 1 t) (iblk m c 2 t)

/-- The output block after point `k`: zero after point 0; after an odd point what the point before left, plus the
    pair of hidden blocks (the point's own on the right, the previous point's on the left) against the point's block
    of down weights; an even point leaves what it found. -/
def outA (c : Dev nD) : (k : ℕ) → k < cfg0.N → Vec F S2048x2048 .f32
  | 0, _ => zeroOut
  | k + 1, hk =>
    if (k + 1) % 2 = 1 then
      downOut (halves (zblk m c ⟨k + 1, hk⟩) (zblk m c ⟨k, Nat.lt_of_succ_lt hk⟩)) (iblk m c 3 ⟨k + 1, hk⟩) (outA c k (Nat.lt_of_succ_lt hk))
    else outA c k (Nat.lt_of_succ_lt hk)

theorem outA_odd (c : Dev nD) (t : Fin cfg0.N) (h : t.val % 2 = 1) (hp : t.val - 1 < cfg0.N) :
    outA m c t.val t.isLt = downOut (halves (zblk m c t) (zblk m c ⟨t.val - 1, hp⟩)) (iblk m c 3 t) (outA m c (t.val - 1) hp) := by
  obtain ⟨k, hk⟩ := t
  cases k with
  | zero => exact absurd (show (0 : ℕ) % 2 = 1 from h) (by decide)
  | succ k => show (if (k + 1) % 2 = 1 then _ else _) = _; rw [if_pos (show (k + 1) % 2 = 1 from h)]; rfl

theorem outA_even (c : Dev nD) (t : Fin cfg0.N) (h : t.val % 2 = 0) (h0 : t.val ≠ 0) (hp : t.val - 1 < cfg0.N) :
    outA m c t.val t.isLt = outA m c (t.val - 1) hp := by
  obtain ⟨k, hk⟩ := t
  cases k with
  | zero => exact absurd rfl h0
  | succ k =>
    have h' : (k + 1) % 2 = 0 := h
    show (if (k + 1) % 2 = 1 then _ else _) = _; rw [if_neg (by omega)]; rfl

/-- The point before an odd position. -/
abbrev prevPt (k : Fin (cfg0.N + 1)) (h : k.val % 2 = 1) : Fin cfg0.N := ⟨k.val - 1, by have := k.isLt; omega⟩

/-- The scratch before point `k` (k = 0 … 32): before an odd point some contents with the previous point's block
    stored over them; before an even point, and after the last, anything. -/
def zPart (c : Dev nD) (k : Fin (cfg0.N + 1)) : sProp 𝕄 :=
  if h : k.val % 2 = 1 then
    iprop(∃ fz0 : BufTy.Contents (Elt F) zM.view.ty, (zM.view.loc (c : Thread nD τ)) ↦[zM.view.set]{fullShare}
      zM.view.writes (Elt F) fz0 (zPieces (prevPt k h) (iblk m c 0 (prevPt k h)) (iblk m c 1 (prevPt k h)) (iblk m c 2 (prevPt k h))))
  else iprop(∃ fz : BufTy.Contents (Elt F) zM.view.ty, (zM.view.loc (c : Thread nD τ)) ↦[zM.view.set]{fullShare} fz)
def Φv (c : Dev nD) (k : Fin (cfg0.N + 1)) : sProp 𝕄 := iprop(zPart m c k ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outA m c t.val t.isLt
  Φ k := Φv m c k
  q _ := fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outA m c t.val t.isLt := by dsimp only [dats]

theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d

/-! ## The output's staging buffer: idle at the even points past 0, written back after the last point only -/

omit [FloatOps F] in
theorem idle4_iff : ∀ t : Fin cfg0.N, idle0 4 (grid0.coords t) = true ↔ (t.val % 2 = 0 ∧ t.val ≠ 0) :=
  (by decide +kernel : ∀ t : Fin grid0.N, idle0 4 (grid0.coords t) = true ↔ (t.val % 2 = 0 ∧ t.val ≠ 0))
omit [FloatOps F] in
theorem idle4_true (t : Fin cfg0.N) (h : t.val % 2 = 0) (h0 : t.val ≠ 0) : idle0 4 (grid0.coords t) = true := (idle4_iff t).mpr ⟨h, h0⟩
omit [FloatOps F] in
theorem idle4_false (t : Fin cfg0.N) (h : t.val % 2 = 1 ∨ t.val = 0) : idle0 4 (grid0.coords t) = false :=
  Bool.eq_false_iff.mpr fun hi => by have := (idle4_iff t).mp hi; omega
omit [FloatOps F] in
theorem flush4_false (t : Fin cfg0.N) (h : t.val ≠ 31) : (cfg0.win 4).flush t = false :=
  Bool.eq_false_iff.mpr fun hf => by have := (flush0_4 t).mp hf; have hlt := t.isLt; have hN := N_32; omega

/-- What a live point left in the output's buffer is found whole by the next (the window's blocks are not cut). -/
theorem kept_4 (c : Dev nD) (t : Fin cfg0.N) (d) : (dats m 0 c).kept 4 t d = outA m c t.val t.isLt := by
  unfold Dat.kept
  rw [Pipeline.fill_of_clip_none 4 _ (fun _ => rfl) d ((dats m 0 c).after 4 t), Pipeline.Window.fill_cut]
  exact after_4 m c t

theorem before_4_zero (c : Dev nD) (t : Fin cfg0.N) (h : t.val = 0) (d) : (dats m 0 c).before 4 t d = d :=
  (dats m 0 c).before_out_reset 4 rfl t (.inl h) d

/-- After point 0 the output's buffer holds, when a point runs, what the point before left — through the idle points. -/
theorem before_4_pos (c : Dev nD) (t : Fin cfg0.N) (h : t.val ≠ 0) (d) :
    (dats m 0 c).before 4 t d = outA m c (t.val - 1) (by have := t.isLt; omega) := by
  have hN := N_32
  have hlt := t.isLt
  rw [(dats m 0 c).before_of_pos 4 t h ((cfg0.win 4).fetch_out rfl t) d, flush4_false ⟨t.val - 1, _⟩ (by show t.val - 1 ≠ 31; omega),
    if_neg Bool.false_ne_true]
  unfold Dat.left
  by_cases hi : (t.val - 1) % 2 = 0 ∧ t.val - 1 ≠ 0
  · -- the point before was idle: it found what the point before IT left, and that point was live
    rw [show cfg0.idle 4 (cfg0.grid.coords ⟨t.val - 1, _⟩) = true from idle4_true ⟨t.val - 1, _⟩ hi.1 hi.2]
    dsimp only
    rw [(dats m 0 c).before_of_pos 4 ⟨t.val - 1, _⟩ hi.2 ((cfg0.win 4).fetch_out rfl _) d,
      flush4_false ⟨t.val - 1 - 1, _⟩ (by show t.val - 1 - 1 ≠ 31; omega), if_neg Bool.false_ne_true]
    unfold Dat.left
    rw [show cfg0.idle 4 (cfg0.grid.coords ⟨t.val - 1 - 1, _⟩) = false from idle4_false ⟨t.val - 1 - 1, _⟩ (.inl (by show (t.val - 1 - 1) % 2 = 1; omega))]
    dsimp only
    rw [kept_4]
    exact (outA_even m c ⟨t.val - 1, by omega⟩ hi.1 hi.2 (by show t.val - 1 - 1 < cfg0.N; omega)).symm
  · rw [show cfg0.idle 4 (cfg0.grid.coords ⟨t.val - 1, _⟩) = false from idle4_false ⟨t.val - 1, _⟩ (by show (t.val - 1) % 2 = 1 ∨ t.val - 1 = 0; omega)]
    dsimp only
    rw [kept_4]

/-! ## The body obligation -/

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before an odd position and before an even one. -/
theorem Φ_odd (c : Dev nD) (k : Fin (cfg0.N + 1)) (h : k.val % 2 = 1) :
    (dats m 0 c).Φ k = iprop((∃ fz0 : BufTy.Contents (Elt F) zM.view.ty, (zM.view.loc (c : Thread nD τ)) ↦[zM.view.set]{fullShare}
      zM.view.writes (Elt F) fz0 (zPieces (prevPt k h) (iblk m c 0 (prevPt k h)) (iblk m c 1 (prevPt k h)) (iblk m c 2 (prevPt k h)))) ∗ ∃ r, prngReg c r) := by
  show Φv m c k = _; unfold Φv zPart; rw [dif_pos h]
theorem Φ_even (c : Dev nD) (k : Fin (cfg0.N + 1)) (h : k.val % 2 = 0) :
    (dats m 0 c).Φ k = iprop((∃ fz : BufTy.Contents (Elt F) zM.view.ty, (zM.view.loc (c : Thread nD τ)) ↦[zM.view.set]{fullShare} fz) ∗ ∃ r, prngReg c r) := by
  show Φv m c k = _; unfold Φv zPart; rw [dif_neg (by omega)]

omit [FloatOps F] in
theorem idleIn0 (t : Fin cfg0.N) : idle0 0 (grid0.coords t) = false := rfl
omit [FloatOps F] in
theorem idleIn1 (t : Fin cfg0.N) : idle0 1 (grid0.coords t) = false := rfl
omit [FloatOps F] in
theorem idleIn2 (t : Fin cfg0.N) : idle0 2 (grid0.coords t) = false := rfl
omit [FloatOps F] in
theorem idleIn3 (t : Fin cfg0.N) : idle0 3 (grid0.coords t) = false := rfl

/-- The obligation at every point, by the point's kind: that kind's run between the invariant's two forms. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N_32
  have hlt := t.isLt
  by_cases hC2 : C2 t
  · -- an odd point
    have hodd : t.val % 2 = 1 := (c2_iff t).mp hC2
    have hC1 : ¬ C1 t := fun h => by have := (c1_iff t).mp h; omega
    have hp : t.val - 1 < cfg0.N := by omega
    have hout : ∀ fz0 : BufTy.Contents (Elt F) zM.view.ty,
        outA m c t.val t.isLt = downOut (zRead t (zM.view.writes (Elt F) fz0 (zPieces ⟨t.val - 1, hp⟩ (iblk m c 0 ⟨t.val - 1, hp⟩) (iblk m c 1 ⟨t.val - 1, hp⟩) (iblk m c 2 ⟨t.val - 1, hp⟩)))
          (iblk m c 0 t) (iblk m c 1 t) (iblk m c 2 t)) (iblk m c 3 t) (outA m c (t.val - 1) hp) := fun fz0 => by
      rw [zRead_halves t ⟨t.val - 1, hp⟩ hodd (by show (t.val - 1) % 2 = 0; omega), outA_odd m c t hodd hp]; rfl
    simp only [idleIn0, idleIn1, idleIn2, idleIn3, idle4_false t (.inl hodd), before_0, before_1, before_2, before_3,
      before_4_pos m c t (by omega), after_0, after_1, after_2, after_3, after_4]
    rw [Φ_odd m c t.castSucc hodd, Φ_even m c t.succ (by show (t.val + 1) % 2 = 0; omega)]
    iintro ⟨⟨⟨%fz0, Hz⟩, Hp⟩, ⟨%Wt, %hW, HO⟩, ⟨%d0, H0⟩, ⟨%d1, H1⟩, ⟨%d2, H2⟩, ⟨%d3, H3⟩, ⟨%d4, H4⟩⟩
    rw [hout fz0]
    iapply (run_odd c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (outA m c (t.val - 1) hp) _ hC1 hC2)
    isplitl [H0 H1 H2 H3]
    · isplitl [H0]; · iexact H0
      isplitl [H1]; · iexact H1
      isplitl [H2]; · iexact H2
      iexact H3
    isplitl [H4]; · iexact H4
    isplitl [Hz]; · iexact Hz
    iintro ⟨⟨H0, H1, H2, H3⟩, H4, Hz⟩
    isplitl [Hz Hp]
    · isplitl [Hz]; · iexists _; iexact Hz
      iexact Hp
    isplitl [HO]; · iapply (owesAt_intro m c); iexact HO
    isplitl [H0]; · iexact H0
    isplitl [H1]; · iexact H1
    isplitl [H2]; · iexact H2
    isplitl [H3]; · iexact H3
    iexact H4
  · have heven : t.val % 2 = 0 := by have := (c2_iff t).not.mp hC2; omega
    by_cases hC1 : C1 t
    · -- point 0
      have h0 : t.val = 0 := (c1_iff t).mp hC1
      simp only [idleIn0, idleIn1, idleIn2, idleIn3, idle4_false t (.inr h0), before_0, before_1, before_2, before_3,
        before_4_zero m c t h0, after_0, after_1, after_2, after_3, after_4]
      rw [Φ_even m c t.castSucc heven, Φ_odd m c t.succ (by show (t.val + 1) % 2 = 1; omega),
        show outA m c t.val t.isLt = zeroOut from by obtain ⟨k, hk⟩ := t; obtain rfl : k = 0 := h0; rfl]
      iintro ⟨⟨⟨%fz, Hz⟩, Hp⟩, ⟨%Wt, %hW, HO⟩, ⟨%d0, H0⟩, ⟨%d1, H1⟩, ⟨%d2, H2⟩, ⟨%d3, H3⟩, ⟨%d4, H4⟩⟩
      iapply (run_zero c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) fz hC1 hC2)
      isplitl [H0 H1 H2 H3]
      · isplitl [H0]; · iexact H0
        isplitl [H1]; · iexact H1
        isplitl [H2]; · iexact H2
        iexact H3
      isplitl [H4]; · iexists _; iexact H4
      isplitl [Hz]; · iexact Hz
      iintro ⟨⟨H0, H1, H2, H3⟩, H4, Hz⟩
      isplitl [Hz Hp]
      · isplitl [Hz]; · iexists fz; iexact Hz
        iexact Hp
      isplitl [HO]; · iapply (owesAt_intro m c); iexact HO
      isplitl [H0]; · iexact H0
      isplitl [H1]; · iexact H1
      isplitl [H2]; · iexact H2
      isplitl [H3]; · iexact H3
      iexact H4
    · -- an even point past 0: the output's buffer goes through untouched
      have h0 : t.val ≠ 0 := fun h => hC1 ((c1_iff t).mpr h)
      simp only [idleIn0, idleIn1, idleIn2, idleIn3, idle4_true t heven h0, flush4_false t (by omega), before_0, before_1, before_2, before_3,
        after_0, after_1, after_2, after_3]
      rw [Φ_even m c t.castSucc heven, Φ_odd m c t.succ (by show (t.val + 1) % 2 = 1; omega)]
      iintro ⟨⟨⟨%fz, Hz⟩, Hp⟩, ⟨%Wt, %hW, HO⟩, ⟨%d0, H0⟩, ⟨%d1, H1⟩, ⟨%d2, H2⟩, ⟨%d3, H3⟩, H4⟩
      iapply (run_even c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) fz hC1 hC2 _)
      isplitl [H0 H1 H2 H3]
      · isplitl [H0]; · iexact H0
        isplitl [H1]; · iexact H1
        isplitl [H2]; · iexact H2
        iexact H3
      isplitl [H4]; · iexact H4
      isplitl [Hz]; · iexact Hz
      iintro ⟨⟨H0, H1, H2, H3⟩, H4, Hz⟩
      isplitl [Hz Hp]
      · isplitl [Hz]; · iexists fz; iexact Hz
        iexact Hp
      isplitl [HO]; · iapply (owesAt_intro m c); iexact HO
      isplitl [H0]; · iexact H0
      isplitl [H1]; · iexact H1
      isplitl [H2]; · iexact H2
      isplitl [H3]; · iexact H3
      iexact H4

end Cert.Kernel.Body

end
-- ==== Proof.LaunchKernel.lean ====
/-
  The launch: the region's run between the host's reshape before it and the reshape after it, from the proof data
  of the run module. Entering the region the scratch holds anything, which is the invariant before point 0; after
  the last point the invariant hands the scratch back at anything. Every weakly fair execution of the program then
  terminates with the argument arrays unchanged.
-/
import proofs.«150734_g21122649162411_cont_8to1_2030_21_alg».proof.Proof.RunKernel

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch held through its whole view is the scratch buffer held whole. -/
theorem zpts_eq (c : Dev nD) (f : BufTy.Contents (Elt F) zM.view.ty) :
    (((zM.view.loc (c : Thread nD τ)) ↦[zM.view.set]{fullShare} f) : sProp 𝕄) = (((c : Thread nD τ).loc cc0_scratch0) ↦{fullShare} f) := by
  simp only [Memref.view_whole, View.set_whole]

theorem hin (c : Dev nD) : (Pipeline.ΦA spec0 c : sProp 𝕄) ⊢ (dats m 0 c).Φ 0 := by
  rw [Φ_even m c 0 rfl]; unfold Pipeline.ΦA; rw [scopedRest0_eq]
  iintro ⟨⟨%f, Hf⟩, Hp⟩
  isplitl [Hf]
  · iexists f; rw [zpts_eq]; iexact Hf
  · iexact Hp

theorem hout (c : Dev nD) : (dats m 0 c).Φ (Fin.last cfg0.N) ⊢ (Pipeline.ΦA spec0 c : sProp 𝕄) := by
  rw [Φ_even m c (Fin.last cfg0.N) (by decide)]; unfold Pipeline.ΦA; rw [scopedRest0_eq]
  iintro ⟨⟨%f, Hf⟩, Hp⟩
  isplitl [Hf]
  · iexists f; rw [← zpts_eq]; iexact Hf
  · iexact Hp

/-- The run: the arrays the windows stage end at the library's account of the pipeline, every other buffer at the
    contents after the host's last reshape. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

/-- The program runs to the end, faults nowhere and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (fun _ _ => rfl) (run_main m ρ)

end Cert.Kernel.Body

end
-- ==== Proof.BodyIdeal.lean ====
import proofs.«150734_g21122649162411_cont_8to1_2030_21_alg».proof.Proof.Gen.KernelIdeal
import proofs.«150734_g21122649162411_cont_8to1_2030_21_alg».proof.Proof.Gen.KernelIdeal.Skeleton
import proofs.«150734_g21122649162411_cont_8to1_2030_21_alg».proof.Proof.Gen.KernelIdeal.Launch
import proofs.«150734_g21122649162411_cont_8to1_2030_21_alg».proof.Proof.Gen.KernelIdeal.Points
import Idealize.ShloMosaic.Lib.Writes
import Idealize.ShloMosaic.Lib.Pipeline.FrameBody
import Idealize.ShloMosaic.Lib.Tactic

noncomputable section

/-
  The kernel body at a symbolic grid point. The grid has 32 points, walked in order; point t works on hidden units
  256·t … 256·t + 255. Every point computes, for its 256 hidden units and all 2048 rows, the hidden value
  (g · logistic g) · u from the whole input block and the point's gate and up weight rows, and stores it into one
  half of a 2048 × 512 scratch: the left half at an even point, the right half at an odd one. Point 0 also zeroes the
  2048 × 2048 output block. An odd point then reads the whole scratch (the two halves written at t − 1 and t) and,
  for each of eight column blocks of 256 output columns, adds to the output block the product of the scratch with
  the matching 256 rows of the point's 2048 × 512 block of down weights. An even point past 0 leaves the output
  block untouched. Stated here: the three kinds of run, each leaving the scratch at one more store and the output
  block at the canonical contents of its stores.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch (the kernel's one scratch operand, whole). -/
abbrev zM : Memref sig .tc .vmem S2048x512 .bf16 := Memref.whole cc0_scratch0

/-- "This is point 0" and "this point is odd", as the body computes them. -/
abbrev C1 (t : Fin cfg0.N) : Prop := k0_cond1 (grid0.coords t) = 1#1
abbrev C2 (t : Fin cfg0.N) : Prop := k0_cond2 (grid0.coords t) = 1#1

omit [FloatOps F] in
theorem c1_iff : ∀ t : Fin cfg0.N, C1 t ↔ t.val = 0 :=
  (by decide +kernel : ∀ t : Fin grid0.N, k0_cond1 (grid0.coords t) = 1#1 ↔ t.val = 0)
omit [FloatOps F] in
theorem c2_iff : ∀ t : Fin cfg0.N, C2 t ↔ t.val % 2 = 1 :=
  (by decide +kernel : ∀ t : Fin grid0.N, k0_cond2 (grid0.coords t) = 1#1 ↔ t.val % 2 = 1)

/-- The scratch half a point stores into starts at column 0 at an even point and at column 256 at an odd one. -/
theorem off1_odd : ∀ t : Fin cfg0.N, t.val % 2 = 1 → k0_off1 (grid0.coords t) = ![0, 256] :=
  (by decide +kernel : ∀ t : Fin grid0.N, t.val % 2 = 1 → k0_off1 (grid0.coords t) = ![0, 256])
theorem off1_even : ∀ t : Fin cfg0.N, t.val % 2 = 0 → k0_off1 (grid0.coords t) = ![0, 0] :=
  (by decide +kernel : ∀ t : Fin grid0.N, t.val % 2 = 0 → k0_off1 (grid0.coords t) = ![0, 0])

instance closedOff_odd (t : Fin cfg0.N) [h : Fact (t.val % 2 = 1)] : ClosedOff (k0_off1 (grid0.coords t)) := ⟨![0, 256], off1_odd t h.out⟩
instance closedOff_even (t : Fin cfg0.N) [h : Fact (t.val % 2 = 0)] : ClosedOff (k0_off1 (grid0.coords t)) := ⟨![0, 0], off1_even t h.out⟩

/-! ## The rectangles the body loads and stores through -/

/-- The whole input block, a whole 256-row block of gate or up weights, the whole scratch. -/
abbrev RX : Rect S2048x2048 := Rect.unit (s := S2048x2048) ![0, 0] S2048x2048.size inb_S2048x2048_S2048x2048_0_0
abbrev RW : Rect S256x2048 := Rect.unit (s := S256x2048) ![0, 0] S256x2048.size inb_S256x2048_S256x2048_0_0
abbrev RZ : Rect S2048x512 := Rect.unit (s := S2048x512) ![0, 0] S2048x512.size inb_S2048x512_S2048x512_0_0
/-- The half of the scratch point `t` stores into. -/
abbrev zRect (t : Fin cfg0.N) : Rect S2048x512 := Rect.unit (s := S2048x512) (k0_off1 (grid0.coords t)) S2048x256.size (k0_off1_inb (grid0.coords t))
/-- Output column block j (columns 256·j … 256·j + 255) and the rows 256·j … of the down-weight block. -/
abbrev oR0 : Rect S2048x2048 := Rect.unit (s := S2048x2048) ![0, 0] S2048x256.size inb_S2048x2048_S2048x256_0_0
abbrev wR0 : Rect S2048x512 := Rect.unit (s := S2048x512) ![0, 0] S256x512.size inb_S2048x512_S256x512_0_0
abbrev oR1 : Rect S2048x2048 := Rect.unit (s := S2048x2048) ![0, 256] S2048x256.size inb_S2048x2048_S2048x256_0_256
abbrev wR1 : Rect S2048x512 := Rect.unit (s := S2048x512) ![256, 0] S256x512.size inb_S2048x512_S256x512_256_0
abbrev oR2 : Rect S2048x2048 := Rect.unit (s := S2048x2048) ![0, 512] S2048x256.size inb_S2048x2048_S2048x256_0_512
abbrev wR2 : Rect S2048x512 := Rect.unit (s := S2048x512) ![512, 0] S256x512.size inb_S2048x512_S256x512_512_0
abbrev oR3 : Rect S2048x2048 := Rect.unit (s := S2048x2048) ![0, 768] S2048x256.size inb_S2048x2048_S2048x256_0_768
abbrev wR3 : Rect S2048x512 := Rect.unit (s := S2048x512) ![768, 0] S256x512.size inb_S2048x512_S256x512_768_0
abbrev oR4 : Rect S2048x2048 := Rect.unit (s := S2048x2048) ![0, 1024] S2048x256.size inb_S2048x2048_S2048x256_0_1024
abbrev wR4 : Rect S2048x512 := Rect.unit (s := S2048x512) ![1024, 0] S256x512.size inb_S2048x512_S256x512_1024_0
abbrev oR5 : Rect S2048x2048 := Rect.unit (s := S2048x2048) ![0, 1280] S2048x256.size inb_S2048x2048_S2048x256_0_1280
abbrev wR5 : Rect S2048x512 := Rect.unit (s := S2048x512) ![1280, 0] S256x512.size inb_S2048x512_S256x512_1280_0
abbrev oR6 : Rect S2048x2048 := Rect.unit (s := S2048x2048) ![0, 1536] S2048x256.size inb_S2048x2048_S2048x256_0_1536
abbrev wR6 : Rect S2048x512 := Rect.unit (s := S2048x512) ![1536, 0] S256x512.size inb_S2048x512_S256x512_1536_0
abbrev oR7 : Rect S2048x2048 := Rect.unit (s := S2048x2048) ![0, 1792] S2048x256.size inb_S2048x2048_S2048x256_0_1792
abbrev wR7 : Rect S2048x512 := Rect.unit (s := S2048x512) ![1792, 0] S256x512.size inb_S2048x512_S256x512_1792_0

/-! ## What the stores hold -/

/-- The 2048 × 256 block of hidden values a point computes from the input block and its gate and up weight rows. -/
abbrev zPay (x : Vec F S2048x2048 .f32) (wg wu : Vec F S256x2048 .f32) : Vec F S2048x256 .bf16 :=
  k0_pay9 (View.ld x RX) (View.ld wg RW) (View.ld wu RW)
/-- A point's one store into the scratch. -/
abbrev zPieces (t : Fin cfg0.N) (x : Vec F S2048x2048 .f32) (wg wu : Vec F S256x2048 .f32) : List (View.Piece (Elt F) S2048x512 .bf16) :=
  [⟨zRect t, zPay x wg wu⟩]
/-- What an odd point's load of the whole scratch reads, the scratch having held `fz` before the point's store. -/
abbrev zRead (t : Fin cfg0.N) (fz : BufTy.Contents (Elt F) zM.view.ty) (x : Vec F S2048x2048 .f32) (wg wu : Vec F S256x2048 .f32) : Vec F S2048x512 .bf16 :=
  View.readAt (Elt F) zM.view RZ.toLoadRect (zM.view.writes (Elt F) fz (zPieces t x wg wu))

/-- The output block after point 0's zeroing. -/
abbrev zeroOut : Vec F S2048x2048 .f32 := View.canon [⟨RX, k0_pay10 (F := F)⟩]
/-- The output block after an odd point: each column block of what it held (`o`) plus the scratch `V` against the
    matching rows of the down-weight block `wd`. -/
abbrev downPieces (V : Vec F S2048x512 .bf16) (wd : Vec F S2048x512 .f32) (o : Vec F S2048x2048 .f32) : List (View.Piece (Elt F) S2048x2048 .f32) :=
  [⟨oR7, k0_pay8 V (View.ld wd wR7) (View.ld o oR7)⟩,
   ⟨oR6, k0_pay7 V (View.ld wd wR6) (View.ld o oR6)⟩,
   ⟨oR5, k0_pay6 V (View.ld wd wR5) (View.ld o oR5)⟩,
   ⟨oR4, k0_pay5 V (View.ld wd wR4) (View.ld o oR4)⟩,
   ⟨oR3, k0_pay4 V (View.ld wd wR3) (View.ld o oR3)⟩,
   ⟨oR2, k0_pay3 V (View.ld wd wR2) (View.ld o oR2)⟩,
   ⟨oR1, k0_pay2 V (View.ld wd wR1) (View.ld o oR1)⟩,
   ⟨oR0, k0_pay1 V (View.ld wd wR0) (View.ld o oR0)⟩]
abbrev downOut (V : Vec F S2048x512 .bf16) (wd : Vec F S2048x512 .f32) (o : Vec F S2048x2048 .f32) : Vec F S2048x2048 .f32 :=
  View.canon (downPieces V wd o)

set_option maxRecDepth 16384 in
omit [FloatOps F] in
/-- The eight column blocks tile the output block; the whole-block store covers it. -/
theorem coverDown (p0 p1 p2 p3 p4 p5 p6 p7 : Vec F S2048x256 .f32) (y : S2048x2048.Idx) :
    ∃ pc ∈ ([⟨oR7, p7⟩, ⟨oR6, p6⟩, ⟨oR5, p5⟩, ⟨oR4, p4⟩, ⟨oR3, p3⟩, ⟨oR2, p2⟩, ⟨oR1, p1⟩, ⟨oR0, p0⟩] : List (View.Piece (Elt F) S2048x2048 .f32)), y ∈ pc.1.set :=
  View.cover_of_tiled [⟨oR7, p7⟩, ⟨oR6, p6⟩, ⟨oR5, p5⟩, ⟨oR4, p4⟩, ⟨oR3, p3⟩, ⟨oR2, p2⟩, ⟨oR1, p1⟩, ⟨oR0, p0⟩] S2048x256.size (by rfl) y
set_option maxRecDepth 16384 in
omit [FloatOps F] in
theorem coverZero (p : Vec F S2048x2048 .f32) (y : S2048x2048.Idx) :
    ∃ pc ∈ ([⟨RX, p⟩] : List (View.Piece (Elt F) S2048x2048 .f32)), y ∈ pc.1.set :=
  View.cover_of_tiled [⟨RX, p⟩] S2048x2048.size (by rfl) y

section Runs

variable (c : Dev nD) (t : Fin cfg0.N)
  (M2 : Memref sig .tc .vmem S2048x2048 .f32) (h2 : M2.IsWhole)
  (M3 : Memref sig .tc .vmem S256x2048 .f32) (h3 : M3.IsWhole)
  (M4 : Memref sig .tc .vmem S256x2048 .f32) (h4 : M4.IsWhole)
  (M5 : Memref sig .tc .vmem S2048x512 .f32) (h5 : M5.IsWhole)
  (M6 : Memref sig .tc .vmem S2048x2048 .f32) (h6 : M6.IsWhole)
  (x : Vec F S2048x2048 .f32) (wg wu : Vec F S256x2048 .f32) (wd : Vec F S2048x512 .f32)
  (o : Vec F S2048x2048 .f32) (fz : BufTy.Contents (Elt F) zM.view.ty)

local notation "BODY" => cc0__swiglu_body (grid0.coords t) M2 h2 M3 h3 M4 h4 M5 h5 M6 h6 (Memref.whole cc0_scratch0) (Memref.isWhole_whole _)
local notation "INS" => iprop(owns (c : Thread nD τ) M2 fullShare x ∗ owns (c : Thread nD τ) M3 fullShare wg ∗ owns (c : Thread nD τ) M4 fullShare wu ∗ owns (c : Thread nD τ) M5 fullShare wd)
local notation "ZPRE" => ((zM.view.loc (c : Thread nD τ)) ↦[zM.view.set]{fullShare} fz)
local notation "ZPOST" => ((zM.view.loc (c : Thread nD τ)) ↦[zM.view.set]{fullShare} zM.view.writes (Elt F) fz (zPieces t x wg wu))

/-- An odd point: the scratch gets the point's store; the output block, at `o`, ends at `downOut` of the scratch as read. -/
theorem run_odd (hC1 : ¬ C1 t) (hC2 : C2 t) (Q : PUnit → sProp 𝕄) :
    iprop(INS ∗ owns (c : Thread nD τ) M6 fullShare o ∗ ZPRE
      ∗ (iprop(INS ∗ owns (c : Thread nD τ) M6 fullShare (downOut (zRead t fz x wg wu) wd o) ∗ ZPOST) -∗ Q ⟨⟩))
      ⊢ wp frame (wpE (defs₀ (F := F)) Variants.none c none) Set.univ BODY Q := by
  haveI : Fact (t.val % 2 = 1) := ⟨(c2_iff t).mp hC2⟩
  unfold owns
  iintro ⟨⟨⟨%f2, %hf2, H2⟩, ⟨%f3, %hf3, H3⟩, ⟨%f4, %hf4, H4⟩, ⟨%f5, %hf5, H5⟩⟩, ⟨%f6, %hf6, H6⟩, Hz, Hk⟩
  subst hf2 hf3 hf4 hf5 hf6
  sl_exec! (disch := assumption)
  sl_step
  iapply Hk
  isplitl [H2 H3 H4 H5]
  · isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro; exact View.read_writes_eq_canon _ _ _ (coverDown _ _ _ _ _ _ _ _)
  iexact Hz

/-- Point 0: the scratch gets the point's store; the output block, at anything, ends zeroed. -/
theorem run_zero (hC1 : C1 t) (hC2 : ¬ C2 t) (Q : PUnit → sProp 𝕄) :
    iprop(INS ∗ (∃ d, owns (c : Thread nD τ) M6 fullShare d) ∗ ZPRE
      ∗ (iprop(INS ∗ owns (c : Thread nD τ) M6 fullShare (zeroOut (F := F)) ∗ ZPOST) -∗ Q ⟨⟩))
      ⊢ wp frame (wpE (defs₀ (F := F)) Variants.none c none) Set.univ BODY Q := by
  haveI : Fact (t.val % 2 = 0) := ⟨by have := (c2_iff t).not.mp hC2; omega⟩
  unfold owns
  iintro ⟨⟨⟨%f2, %hf2, H2⟩, ⟨%f3, %hf3, H3⟩, ⟨%f4, %hf4, H4⟩, ⟨%f5, %hf5, H5⟩⟩, ⟨%d6, %f6, %hf6, H6⟩, Hz, Hk⟩
  subst hf2 hf3 hf4 hf5
  sl_exec! (disch := assumption)
  sl_step
  iapply Hk
  isplitl [H2 H3 H4 H5]
  · isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [H6]
  · iexists _; isplitr; swap; (· iexact H6); ipureintro; exact View.read_writes_eq_canon _ _ _ (coverZero _)
  iexact Hz

/-- An even point past 0: the scratch gets the point's store; the output block's buffer, held as `O`, is not touched. -/
theorem run_even (hC1 : ¬ C1 t) (hC2 : ¬ C2 t) (O : sProp 𝕄) (Q : PUnit → sProp 𝕄) :
    iprop(INS ∗ O ∗ ZPRE ∗ (iprop(INS ∗ O ∗ ZPOST) -∗ Q ⟨⟩))
      ⊢ wp frame (wpE (defs₀ (F := F)) Variants.none c none) Set.univ BODY Q := by
  haveI : Fact (t.val % 2 = 0) := ⟨by have := (c2_iff t).not.mp hC2; omega⟩
  unfold owns
  iintro ⟨⟨⟨%f2, %hf2, H2⟩, ⟨%f3, %hf3, H3⟩, ⟨%f4, %hf4, H4⟩, ⟨%f5, %hf5, H5⟩⟩, HO, Hz, Hk⟩
  subst hf2 hf3 hf4 hf5
  sl_exec! (disch := assumption)
  sl_step
  iapply Hk
  isplitl [H2 H3 H4 H5]
  · isplitl [H2]; · iexists f2; isplitr; (· ipureintro; rfl); iexact H2
    isplitl [H3]; · iexists f3; isplitr; (· ipureintro; rfl); iexact H3
    isplitl [H4]; · iexists f4; isplitr; (· ipureintro; rfl); iexact H4
    iexists f5; isplitr; (· ipureintro; rfl); iexact H5
  isplitl [HO]; · iexact HO
  iexact Hz

end Runs

end Cert.KernelIdeal.Body

end
-- ==== Proof.RunIdeal.lean ====
/-
  The run of the kernel's one region: what the pipeline's buffers hold from point to point, and the launch.
  The output block is staged once for the whole grid and written back after the last point, so the output's staging
  buffer carries the running sum from point to point: zero after point 0, and after each odd point t what it held
  plus the contribution of hidden units 256·(t − 1) … 256·t + 255; an even point past 0 does not touch it. The
  scratch carries the left half of a pair of hidden blocks from an even point to the odd point after it: before an
  odd point it holds some contents with the previous point's block stored over its left half; before an even point
  it holds anything.
-/
import proofs.«150734_g21122649162411_cont_8to1_2030_21_alg».proof.Proof.BodyIdeal
import proofs.«150734_g21122649162411_cont_8to1_2030_21_alg».proof.Proof.Gen.KernelIdeal.Frame
import Idealize.ShloMosaic.Lib.Pipeline.FrameSuffix
import Idealize.ShloMosaic.Lib.Pipeline.Value

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem N_32 : cfg0.N = 32 := N_0

omit [FloatOps F] in
theorem hz2 : (![0, 0] : Fin 2 → Nat) = fun _ => 0 := funext fun a => by fin_cases a <;> rfl

/-! ## The scratch as an odd point reads it: two halves -/

theorem zL_inb : ∀ a, (![0, 0] : Fin 2 → Nat) a + S2048x256.size a ≤ S2048x512.size a := by decide
theorem zR_inb : ∀ a, (![0, 256] : Fin 2 → Nat) a + S2048x256.size a ≤ S2048x512.size a := by decide
/-- The left and the right half of the scratch. -/
abbrev zRectL : Rect S2048x512 := Rect.unit (s := S2048x512) ![0, 0] S2048x256.size zL_inb
abbrev zRectR : Rect S2048x512 := Rect.unit (s := S2048x512) ![0, 256] S2048x256.size zR_inb

omit [FloatOps F] in
theorem zRect_odd (t : Fin cfg0.N) (h : t.val % 2 = 1) : zRect t = zRectR := Rect.unit_congr (off1_odd t h) _ _
omit [FloatOps F] in
theorem zRect_even (t : Fin cfg0.N) (h : t.val % 2 = 0) : zRect t = zRectL := Rect.unit_congr (off1_even t h) _ _

omit [FloatOps F] in
/-- A store through a half-wide rectangle of the scratch, restated at equal offsets. -/
theorem halfPiece_congr {off off' : Fin 2 → Nat} (h : off = off') (inb : ∀ a, off a + S2048x256.size a ≤ S2048x512.size a)
    (inb' : ∀ a, off' a + S2048x256.size a ≤ S2048x512.size a) (p : Vec F S2048x256 .bf16) :
    (⟨Rect.unit (s := S2048x512) off S2048x256.size inb, p⟩ : View.Piece (Elt F) S2048x512 .bf16) = ⟨Rect.unit (s := S2048x512) off' S2048x256.size inb', p⟩ := by
  subst h; rfl

set_option maxRecDepth 16384 in
omit [FloatOps F] in
theorem coverHalves (p q : Vec F S2048x256 .bf16) (y : S2048x512.Idx) :
    ∃ pc ∈ ([⟨zRectR, p⟩, ⟨zRectL, q⟩] : List (View.Piece (Elt F) S2048x512 .bf16)), y ∈ pc.1.set :=
  View.cover_of_tiled [⟨zRectR, p⟩, ⟨zRectL, q⟩] S2048x256.size (by rfl) y

/-- The whole scratch as two halves: the right one `p`, the left one `q`. -/
abbrev halves (p q : Vec F S2048x256 .bf16) : Vec F S2048x512 .bf16 := View.canon [⟨zRectR, p⟩, ⟨zRectL, q⟩]

/-- An odd point's load of the whole scratch, the point before having stored its block over the left half of some
    contents: the two points' blocks side by side, whatever those contents were. -/
theorem zRead_halves (t t' : Fin cfg0.N) (ht : t.val % 2 = 1) (ht' : t'.val % 2 = 0) (fz0 : BufTy.Contents (Elt F) zM.view.ty)
    (x x' : Vec F S2048x2048 .f32) (wg wu wg' wu' : Vec F S256x2048 .f32) :
    zRead t (zM.view.writes (Elt F) fz0 (zPieces t' x' wg' wu')) x wg wu = halves (zPay x wg wu) (zPay x' wg' wu') := by
  unfold zRead zPieces halves
  rw [← View.writes_append]
  show View.ld (zM.view.read (Elt F) (zM.view.writes (Elt F) fz0 [⟨zRect t, zPay x wg wu⟩, ⟨zRect t', zPay x' wg' wu'⟩])) RZ = _
  rw [View.ld_unit_zero (S := S2048x512) hz2, halfPiece_congr (off1_odd t ht) _ zR_inb, halfPiece_congr (off1_even t' ht') _ zL_inb]
  exact View.read_writes_eq_canon _ _ _ (coverHalves _ _)

variable (m : (ℓ : Loc nD τ sig) → Buf (Elt F) ℓ) (ρ : Dev nD → PrngReg)

/-! ## What the buffers hold from point to point -/

/-- The block of hidden values point `t` computes and stores into its half of the scratch. -/
def zblk (c : Dev nD) (t : Fin cfg0.N) : Vec F S2048x256 .bf16 := zPay (iblk m c 0 t) (iblk m c 1 t) (iblk m c 2 t)

/-- The output block after point `k`: zero after point 0; after an odd point what the point before left, plus the
    pair of hidden blocks (the point's own on the right, the previous point's on the left) against the point's block
    of down weights; an even point leaves what it found. -/
def outA (c : Dev nD) : (k : ℕ) → k < cfg0.N → Vec F S2048x2048 .f32
  | 0, _ => zeroOut
  | k + 1, hk =>
    if (k + 1) % 2 = 1 then
      downOut (halves (zblk m c ⟨k + 1, hk⟩) (zblk m c ⟨k, Nat.lt_of_succ_lt hk⟩)) (iblk m c 3 ⟨k + 1, hk⟩) (outA c k (Nat.lt_of_succ_lt hk))
    else outA c k (Nat.lt_of_succ_lt hk)

theorem outA_odd (c : Dev nD) (t : Fin cfg0.N) (h : t.val % 2 = 1) (hp : t.val - 1 < cfg0.N) :
    outA m c t.val t.isLt = downOut (halves (zblk m c t) (zblk m c ⟨t.val - 1, hp⟩)) (iblk m c 3 t) (outA m c (t.val - 1) hp) := by
  obtain ⟨k, hk⟩ := t
  cases k with
  | zero => exact absurd (show (0 : ℕ) % 2 = 1 from h) (by decide)
  | succ k => show (if (k + 1) % 2 = 1 then _ else _) = _; rw [if_pos (show (k + 1) % 2 = 1 from h)]; rfl

theorem outA_even (c : Dev nD) (t : Fin cfg0.N) (h : t.val % 2 = 0) (h0 : t.val ≠ 0) (hp : t.val - 1 < cfg0.N) :
    outA m c t.val t.isLt = outA m c (t.val - 1) hp := by
  obtain ⟨k, hk⟩ := t
  cases k with
  | zero => exact absurd rfl h0
  | succ k =>
    have h' : (k + 1) % 2 = 0 := h
    show (if (k + 1) % 2 = 1 then _ else _) = _; rw [if_neg (by omega)]; rfl

/-- The point before an odd position. -/
abbrev prevPt (k : Fin (cfg0.N + 1)) (h : k.val % 2 = 1) : Fin cfg0.N := ⟨k.val - 1, by have := k.isLt; omega⟩

/-- The scratch before point `k` (k = 0 … 32): before an odd point some contents with the previous point's block
    stored over them; before an even point, and after the last, anything. -/
def zPart (c : Dev nD) (k : Fin (cfg0.N + 1)) : sProp 𝕄 :=
  if h : k.val % 2 = 1 then
    iprop(∃ fz0 : BufTy.Contents (Elt F) zM.view.ty, (zM.view.loc (c : Thread nD τ)) ↦[zM.view.set]{fullShare}
      zM.view.writes (Elt F) fz0 (zPieces (prevPt k h) (iblk m c 0 (prevPt k h)) (iblk m c 1 (prevPt k h)) (iblk m c 2 (prevPt k h))))
  else iprop(∃ fz : BufTy.Contents (Elt F) zM.view.ty, (zM.view.loc (c : Thread nD τ)) ↦[zM.view.set]{fullShare} fz)
def Φv (c : Dev nD) (k : Fin (cfg0.N + 1)) : sProp 𝕄 := iprop(zPart m c k ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outA m c t.val t.isLt
  Φ k := Φv m c k
  q _ := fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outA m c t.val t.isLt := by dsimp only [dats]

theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d

/-! ## The output's staging buffer: idle at the even points past 0, written back after the last point only -/

omit [FloatOps F] in
theorem idle4_iff : ∀ t : Fin cfg0.N, idle0 4 (grid0.coords t) = true ↔ (t.val % 2 = 0 ∧ t.val ≠ 0) :=
  (by decide +kernel : ∀ t : Fin grid0.N, idle0 4 (grid0.coords t) = true ↔ (t.val % 2 = 0 ∧ t.val ≠ 0))
omit [FloatOps F] in
theorem idle4_true (t : Fin cfg0.N) (h : t.val % 2 = 0) (h0 : t.val ≠ 0) : idle0 4 (grid0.coords t) = true := (idle4_iff t).mpr ⟨h, h0⟩
omit [FloatOps F] in
theorem idle4_false (t : Fin cfg0.N) (h : t.val % 2 = 1 ∨ t.val = 0) : idle0 4 (grid0.coords t) = false :=
  Bool.eq_false_iff.mpr fun hi => by have := (idle4_iff t).mp hi; omega
omit [FloatOps F] in
theorem flush4_false (t : Fin cfg0.N) (h : t.val ≠ 31) : (cfg0.win 4).flush t = false :=
  Bool.eq_false_iff.mpr fun hf => by have := (flush0_4 t).mp hf; have hlt := t.isLt; have hN := N_32; omega

/-- What a live point left in the output's buffer is found whole by the next (the window's blocks are not cut). -/
theorem kept_4 (c : Dev nD) (t : Fin cfg0.N) (d) : (dats m 0 c).kept 4 t d = outA m c t.val t.isLt := by
  unfold Dat.kept
  rw [Pipeline.fill_of_clip_none 4 _ (fun _ => rfl) d ((dats m 0 c).after 4 t), Pipeline.Window.fill_cut]
  exact after_4 m c t

theorem before_4_zero (c : Dev nD) (t : Fin cfg0.N) (h : t.val = 0) (d) : (dats m 0 c).before 4 t d = d :=
  (dats m 0 c).before_out_reset 4 rfl t (.inl h) d

/-- After point 0 the output's buffer holds, when a point runs, what the point before left — through the idle points. -/
theorem before_4_pos (c : Dev nD) (t : Fin cfg0.N) (h : t.val ≠ 0) (d) :
    (dats m 0 c).before 4 t d = outA m c (t.val - 1) (by have := t.isLt; omega) := by
  have hN := N_32
  have hlt := t.isLt
  rw [(dats m 0 c).before_of_pos 4 t h ((cfg0.win 4).fetch_out rfl t) d, flush4_false ⟨t.val - 1, _⟩ (by show t.val - 1 ≠ 31; omega),
    if_neg Bool.false_ne_true]
  unfold Dat.left
  by_cases hi : (t.val - 1) % 2 = 0 ∧ t.val - 1 ≠ 0
  · -- the point before was idle: it found what the point before IT left, and that point was live
    rw [show cfg0.idle 4 (cfg0.grid.coords ⟨t.val - 1, _⟩) = true from idle4_true ⟨t.val - 1, _⟩ hi.1 hi.2]
    dsimp only
    rw [(dats m 0 c).before_of_pos 4 ⟨t.val - 1, _⟩ hi.2 ((cfg0.win 4).fetch_out rfl _) d,
      flush4_false ⟨t.val - 1 - 1, _⟩ (by show t.val - 1 - 1 ≠ 31; omega), if_neg Bool.false_ne_true]
    unfold Dat.left
    rw [show cfg0.idle 4 (cfg0.grid.coords ⟨t.val - 1 - 1, _⟩) = false from idle4_false ⟨t.val - 1 - 1, _⟩ (.inl (by show (t.val - 1 - 1) % 2 = 1; omega))]
    dsimp only
    rw [kept_4]
    exact (outA_even m c ⟨t.val - 1, by omega⟩ hi.1 hi.2 (by show t.val - 1 - 1 < cfg0.N; omega)).symm
  · rw [show cfg0.idle 4 (cfg0.grid.coords ⟨t.val - 1, _⟩) = false from idle4_false ⟨t.val - 1, _⟩ (by show (t.val - 1) % 2 = 1 ∨ t.val - 1 = 0; omega)]
    dsimp only
    rw [kept_4]

/-! ## The body obligation -/

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The invariant before an odd position and before an even one. -/
theorem Φ_odd (c : Dev nD) (k : Fin (cfg0.N + 1)) (h : k.val % 2 = 1) :
    (dats m 0 c).Φ k = iprop((∃ fz0 : BufTy.Contents (Elt F) zM.view.ty, (zM.view.loc (c : Thread nD τ)) ↦[zM.view.set]{fullShare}
      zM.view.writes (Elt F) fz0 (zPieces (prevPt k h) (iblk m c 0 (prevPt k h)) (iblk m c 1 (prevPt k h)) (iblk m c 2 (prevPt k h)))) ∗ ∃ r, prngReg c r) := by
  show Φv m c k = _; unfold Φv zPart; rw [dif_pos h]
theorem Φ_even (c : Dev nD) (k : Fin (cfg0.N + 1)) (h : k.val % 2 = 0) :
    (dats m 0 c).Φ k = iprop((∃ fz : BufTy.Contents (Elt F) zM.view.ty, (zM.view.loc (c : Thread nD τ)) ↦[zM.view.set]{fullShare} fz) ∗ ∃ r, prngReg c r) := by
  show Φv m c k = _; unfold Φv zPart; rw [dif_neg (by omega)]

omit [FloatOps F] in
theorem idleIn0 (t : Fin cfg0.N) : idle0 0 (grid0.coords t) = false := rfl
omit [FloatOps F] in
theorem idleIn1 (t : Fin cfg0.N) : idle0 1 (grid0.coords t) = false := rfl
omit [FloatOps F] in
theorem idleIn2 (t : Fin cfg0.N) : idle0 2 (grid0.coords t) = false := rfl
omit [FloatOps F] in
theorem idleIn3 (t : Fin cfg0.N) : idle0 3 (grid0.coords t) = false := rfl

/-- The obligation at every point, by the point's kind: that kind's run between the invariant's two forms. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  have hN := N_32
  have hlt := t.isLt
  by_cases hC2 : C2 t
  · -- an odd point
    have hodd : t.val % 2 = 1 := (c2_iff t).mp hC2
    have hC1 : ¬ C1 t := fun h => by have := (c1_iff t).mp h; omega
    have hp : t.val - 1 < cfg0.N := by omega
    have hout : ∀ fz0 : BufTy.Contents (Elt F) zM.view.ty,
        outA m c t.val t.isLt = downOut (zRead t (zM.view.writes (Elt F) fz0 (zPieces ⟨t.val - 1, hp⟩ (iblk m c 0 ⟨t.val - 1, hp⟩) (iblk m c 1 ⟨t.val - 1, hp⟩) (iblk m c 2 ⟨t.val - 1, hp⟩)))
          (iblk m c 0 t) (iblk m c 1 t) (iblk m c 2 t)) (iblk m c 3 t) (outA m c (t.val - 1) hp) := fun fz0 => by
      rw [zRead_halves t ⟨t.val - 1, hp⟩ hodd (by show (t.val - 1) % 2 = 0; omega), outA_odd m c t hodd hp]; rfl
    simp only [idleIn0, idleIn1, idleIn2, idleIn3, idle4_false t (.inl hodd), before_0, before_1, before_2, before_3,
      before_4_pos m c t (by omega), after_0, after_1, after_2, after_3, after_4]
    rw [Φ_odd m c t.castSucc hodd, Φ_even m c t.succ (by show (t.val + 1) % 2 = 0; omega)]
    iintro ⟨⟨⟨%fz0, Hz⟩, Hp⟩, ⟨%Wt, %hW, HO⟩, ⟨%d0, H0⟩, ⟨%d1, H1⟩, ⟨%d2, H2⟩, ⟨%d3, H3⟩, ⟨%d4, H4⟩⟩
    rw [hout fz0]
    iapply (run_odd c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (outA m c (t.val - 1) hp) _ hC1 hC2)
    isplitl [H0 H1 H2 H3]
    · isplitl [H0]; · iexact H0
      isplitl [H1]; · iexact H1
      isplitl [H2]; · iexact H2
      iexact H3
    isplitl [H4]; · iexact H4
    isplitl [Hz]; · iexact Hz
    iintro ⟨⟨H0, H1, H2, H3⟩, H4, Hz⟩
    isplitl [Hz Hp]
    · isplitl [Hz]; · iexists _; iexact Hz
      iexact Hp
    isplitl [HO]; · iapply (owesAt_intro m c); iexact HO
    isplitl [H0]; · iexact H0
    isplitl [H1]; · iexact H1
    isplitl [H2]; · iexact H2
    isplitl [H3]; · iexact H3
    iexact H4
  · have heven : t.val % 2 = 0 := by have := (c2_iff t).not.mp hC2; omega
    by_cases hC1 : C1 t
    · -- point 0
      have h0 : t.val = 0 := (c1_iff t).mp hC1
      simp only [idleIn0, idleIn1, idleIn2, idleIn3, idle4_false t (.inr h0), before_0, before_1, before_2, before_3,
        before_4_zero m c t h0, after_0, after_1, after_2, after_3, after_4]
      rw [Φ_even m c t.castSucc heven, Φ_odd m c t.succ (by show (t.val + 1) % 2 = 1; omega),
        show outA m c t.val t.isLt = zeroOut from by obtain ⟨k, hk⟩ := t; obtain rfl : k = 0 := h0; rfl]
      iintro ⟨⟨⟨%fz, Hz⟩, Hp⟩, ⟨%Wt, %hW, HO⟩, ⟨%d0, H0⟩, ⟨%d1, H1⟩, ⟨%d2, H2⟩, ⟨%d3, H3⟩, ⟨%d4, H4⟩⟩
      iapply (run_zero c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) fz hC1 hC2)
      isplitl [H0 H1 H2 H3]
      · isplitl [H0]; · iexact H0
        isplitl [H1]; · iexact H1
        isplitl [H2]; · iexact H2
        iexact H3
      isplitl [H4]; · iexists _; iexact H4
      isplitl [Hz]; · iexact Hz
      iintro ⟨⟨H0, H1, H2, H3⟩, H4, Hz⟩
      isplitl [Hz Hp]
      · isplitl [Hz]; · iexists fz; iexact Hz
        iexact Hp
      isplitl [HO]; · iapply (owesAt_intro m c); iexact HO
      isplitl [H0]; · iexact H0
      isplitl [H1]; · iexact H1
      isplitl [H2]; · iexact H2
      isplitl [H3]; · iexact H3
      iexact H4
    · -- an even point past 0: the output's buffer goes through untouched
      have h0 : t.val ≠ 0 := fun h => hC1 ((c1_iff t).mpr h)
      simp only [idleIn0, idleIn1, idleIn2, idleIn3, idle4_true t heven h0, flush4_false t (by omega), before_0, before_1, before_2, before_3,
        after_0, after_1, after_2, after_3]
      rw [Φ_even m c t.castSucc heven, Φ_odd m c t.succ (by show (t.val + 1) % 2 = 1; omega)]
      iintro ⟨⟨⟨%fz, Hz⟩, Hp⟩, ⟨%Wt, %hW, HO⟩, ⟨%d0, H0⟩, ⟨%d1, H1⟩, ⟨%d2, H2⟩, ⟨%d3, H3⟩, H4⟩
      iapply (run_even c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) fz hC1 hC2 _)
      isplitl [H0 H1 H2 H3]
      · isplitl [H0]; · iexact H0
        isplitl [H1]; · iexact H1
        isplitl [H2]; · iexact H2
        iexact H3
      isplitl [H4]; · iexact H4
      isplitl [Hz]; · iexact Hz
      iintro ⟨⟨H0, H1, H2, H3⟩, H4, Hz⟩
      isplitl [Hz Hp]
      · isplitl [Hz]; · iexists fz; iexact Hz
        iexact Hp
      isplitl [HO]; · iapply (owesAt_intro m c); iexact HO
      isplitl [H0]; · iexact H0
      isplitl [H1]; · iexact H1
      isplitl [H2]; · iexact H2
      isplitl [H3]; · iexact H3
      iexact H4

end Cert.KernelIdeal.Body

end
-- ==== Proof.LaunchIdeal.lean ====
/-
  The launch: the region's run between the host's reshape before it and the reshape after it, from the proof data
  of the run module. Entering the region the scratch holds anything, which is the invariant before point 0; after
  the last point the invariant hands the scratch back at anything. Every weakly fair execution of the program then
  terminates with the argument arrays unchanged.
-/
import proofs.«150734_g21122649162411_cont_8to1_2030_21_alg».proof.Proof.RunIdeal

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch held through its whole view is the scratch buffer held whole. -/
theorem zpts_eq (c : Dev nD) (f : BufTy.Contents (Elt F) zM.view.ty) :
    (((zM.view.loc (c : Thread nD τ)) ↦[zM.view.set]{fullShare} f) : sProp 𝕄) = (((c : Thread nD τ).loc cc0_scratch0) ↦{fullShare} f) := by
  simp only [Memref.view_whole, View.set_whole]

theorem hin (c : Dev nD) : (Pipeline.ΦA spec0 c : sProp 𝕄) ⊢ (dats m 0 c).Φ 0 := by
  rw [Φ_even m c 0 rfl]; unfold Pipeline.ΦA; rw [scopedRest0_eq]
  iintro ⟨⟨%f, Hf⟩, Hp⟩
  isplitl [Hf]
  · iexists f; rw [zpts_eq]; iexact Hf
  · iexact Hp

theorem hout (c : Dev nD) : (dats m 0 c).Φ (Fin.last cfg0.N) ⊢ (Pipeline.ΦA spec0 c : sProp 𝕄) := by
  rw [Φ_even m c (Fin.last cfg0.N) (by decide)]; unfold Pipeline.ΦA; rw [scopedRest0_eq]
  iintro ⟨⟨%f, Hf⟩, Hp⟩
  isplitl [Hf]
  · iexists f; rw [← zpts_eq]; iexact Hf
  · iexact Hp

/-- The run: the arrays the windows stage end at the library's account of the pipeline, every other buffer at the
    contents after the host's last reshape. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hin := hin m) (hout := hout m)

/-- The program runs to the end, faults nowhere and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (fun _ _ => rfl) (run_main m ρ)

end Cert.KernelIdeal.Body

end
-- ==== Proof.Spec.lean ====
/-
  The function both programs compute, stated once over the argument arrays at the exact extended reals.
  The input x has 2048 rows of 2048 entries (under a leading axis of extent 1); the gate and up weights have 8192
  rows of 2048 entries, the down weights 2048 rows of 8192 entries. Row r of x against row h of a weight matrix is
  the plain sum of products `proj`; hidden unit h of row r is (g · logistic g) · u with g, u the gate and up
  projections; output entry (r, o) is the sum over all 8192 hidden units of the hidden value times the down
  weight (o, h).
-/
import Idealize.ShloMosaic.PureOps.Ideal
import Idealize.ShloMosaic.Lib.ValueIdx

noncomputable section

namespace Cert.Swiglu

open Idealize.ShloMosaic Idealize.ShloMosaic.ValueIdx

/-- The shapes of the argument arrays. -/
abbrev SX : Shape := ⟨3, ![1, 2048, 2048]⟩
abbrev SW : Shape := ⟨2, ![8192, 2048]⟩
abbrev SD : Shape := ⟨2, ![2048, 8192]⟩

/-- Row `r` of the input against row `h` of a weight matrix with 8192 rows: the sum over the 2048 shared entries. -/
def proj (x : FVec Ideal SX .f32) (w : FVec Ideal SW .f32) (r : Fin 2048) (h : Fin 8192) : EReal :=
  ∑ k : Fin 2048, x (ix3 (0 : Fin 1) r k) * w (ix2 h k)

/-- Hidden unit `h` of row `r`: the gate projection times its logistic, times the up projection. -/
def hidden (x : FVec Ideal SX .f32) (wg wu : FVec Ideal SW .f32) (r : Fin 2048) (h : Fin 8192) : EReal :=
  (proj x wg r h * Ideal.logistic (proj x wg r h)) * proj x wu r h

/-- The result array: entry (0, r, o) is the sum over the hidden units of the hidden value times the down weight. -/
def G (x : FVec Ideal SX .f32) (wg wu : FVec Ideal SW .f32) (wd : FVec Ideal SD .f32) : FVec Ideal SX .f32 :=
  fun i => ∑ h : Fin 8192, hidden x wg wu (i 1) h * wd (ix2 (i 2) h)

end Cert.Swiglu

end
-- ==== Proof.RefIsG.lean ====
/-
  The reference program computes the specification's function: its result array, read at an index, is the sum over
  the 8192 hidden units of ((g · logistic g) · u) times the down weight, with g and u the gate and up projections of
  the index's row. The reference flattens the leading unit axis away and back, transposes each weight matrix before
  contracting, and spells the logistic as 1 / (1 + exp (-g)); each of these is read at an index and identified with
  the specification's form. Both sides associate the products in the same order, so no arithmetic law is used.
-/
import proofs.«150734_g21122649162411_cont_8to1_2030_21_alg».proof.Proof.Gen.ReferenceIdeal.Read
import proofs.«150734_g21122649162411_cont_8to1_2030_21_alg».proof.Proof.Spec
import Idealize.ShloMosaic.Lib.IdealHost

noncomputable section

namespace Cert.Swiglu.RefValue

open Cert.ReferenceIdeal Cert.ReferenceIdeal.Gen Cert.ReferenceIdeal.Read
open Idealize.ShloMosaic Idealize.ShloMosaic.ValueIdx Idealize.ShloMosaic.StableHlo
open scoped BigOperators

/-! ## Index equations: the reference's composed index functions at coordinates -/

/-- Flattening the leading unit axis: entry (r, k) of the flattened input is entry (0, r, k). -/
theorem idx_flatten (r k : Fin 2048) : idx_main_v0 (ix2 r k) = ix3 (0 : Fin 1) r k := by
  funext a
  have hr : r.val < 2048 := r.isLt
  have hk : k.val < 2048 := k.isLt
  match a with
  | ⟨0, _⟩ => rfl
  | ⟨1, _⟩ => exact Fin.ext (by show (r.val * 2048 + k.val) / 2048 % 2048 = r.val; omega)
  | ⟨2, _⟩ => exact Fin.ext (by show (r.val * 2048 + k.val) % 2048 = k.val; omega)

/-- Restoring the leading unit axis: entry (a, r, o) of the result is entry (r, o) of the flat result. -/
theorem idx_unflatten (a : Fin 1) (r o : Fin 2048) : idx_main_v9 (ix3 a r o) = ix2 r o := by
  funext b
  have ha : a.val < 1 := a.isLt
  have hr : r.val < 2048 := r.isLt
  have ho : o.val < 2048 := o.isLt
  match b with
  | ⟨0, _⟩ => exact Fin.ext (by show ((a.val * 2048 + r.val) * 2048 + o.val) / 2048 = r.val; omega)
  | ⟨1, _⟩ => exact Fin.ext (by show ((a.val * 2048 + r.val) * 2048 + o.val) % 2048 = o.val; omega)

/-- The transposed gate weights at (k, h) are the gate weights at (h, k). -/
theorem idx_gateT (k : Fin 2048) (h : Fin 8192) : idx_main_v1 (ix2 k h) = ix2 h k :=
  funext fun a => Fin.ext (by match a with | ⟨0, _⟩ => rfl | ⟨1, _⟩ => rfl)

/-- The transposed up weights at (k, h) are the up weights at (h, k). -/
theorem idx_upT (k : Fin 2048) (h : Fin 8192) : idx_main_v3 (ix2 k h) = ix2 h k :=
  funext fun a => Fin.ext (by match a with | ⟨0, _⟩ => rfl | ⟨1, _⟩ => rfl)

/-- The transposed down weights at (h, o) are the down weights at (o, h). -/
theorem idx_downT (h : Fin 8192) (o : Fin 2048) : idx_main_v7 (ix2 h o) = ix2 o h :=
  funext fun a => Fin.ext (by match a with | ⟨0, _⟩ => rfl | ⟨1, _⟩ => rfl)

theorem lidx_gate (r : Fin 2048) (h : Fin 8192) (k : Fin 2048) : lidx_main_v2 (ix2 r h) k = ix2 r k :=
  funext fun a => Fin.ext (by match a with | ⟨0, _⟩ => rfl | ⟨1, _⟩ => rfl)
theorem ridx_gate (r : Fin 2048) (h : Fin 8192) (k : Fin 2048) : ridx_main_v2 (ix2 r h) k = ix2 k h :=
  funext fun a => Fin.ext (by match a with | ⟨0, _⟩ => rfl | ⟨1, _⟩ => rfl)
theorem lidx_up (r : Fin 2048) (h : Fin 8192) (k : Fin 2048) : lidx_main_v4 (ix2 r h) k = ix2 r k :=
  funext fun a => Fin.ext (by match a with | ⟨0, _⟩ => rfl | ⟨1, _⟩ => rfl)
theorem ridx_up (r : Fin 2048) (h : Fin 8192) (k : Fin 2048) : ridx_main_v4 (ix2 r h) k = ix2 k h :=
  funext fun a => Fin.ext (by match a with | ⟨0, _⟩ => rfl | ⟨1, _⟩ => rfl)
theorem lidx_down (r o : Fin 2048) (h : Fin 8192) : lidx_main_v8 (ix2 r o) h = ix2 r h :=
  funext fun a => Fin.ext (by match a with | ⟨0, _⟩ => rfl | ⟨1, _⟩ => rfl)
theorem ridx_down (r o : Fin 2048) (h : Fin 8192) : ridx_main_v8 (ix2 r o) h = ix2 h o :=
  funext fun a => Fin.ext (by match a with | ⟨0, _⟩ => rfl | ⟨1, _⟩ => rfl)

/-! ## The stages at an index -/

/-- The gate projection: the first contraction at (r, h) is row r of the input against row h of the gate weights. -/
theorem gate_at (x : FVec Ideal S1x2048x2048 .f32) (wg : FVec Ideal S8192x2048 .f32) (r : Fin 2048) (h : Fin 8192) :
    val_main_v2 (F := Ideal) x wg (ix2 r h) = proj x wg r h := by
  rw [val_main_v2_apply]
  unfold proj
  refine Finset.sum_congr rfl fun k _ => ?_
  rw [lidx_gate, ridx_gate, val_main_v0_apply, val_main_v1_apply, idx_flatten, idx_gateT]

/-- The up projection: the second contraction at (r, h) is row r of the input against row h of the up weights. -/
theorem up_at (x : FVec Ideal S1x2048x2048 .f32) (wu : FVec Ideal S8192x2048 .f32) (r : Fin 2048) (h : Fin 8192) :
    val_main_v4 (F := Ideal) x wu (ix2 r h) = proj x wu r h := by
  rw [val_main_v4_apply]
  unfold proj
  refine Finset.sum_congr rfl fun k _ => ?_
  rw [lidx_up, ridx_up, val_main_v0_apply, val_main_v3_apply, idx_flatten, idx_upT]

/-- The hidden value: 1 / (1 + exp (-g)) is the logistic of g, and the two products associate as in the
    specification. -/
theorem hidden_at (x : FVec Ideal S1x2048x2048 .f32) (wg wu : FVec Ideal S8192x2048 .f32) (r : Fin 2048) (h : Fin 8192) :
    val_main_v6 (F := Ideal) x wg wu (ix2 r h) = hidden x wg wu r h := by
  rw [val_main_v6_apply, val_main_v5_apply, val_main_call0_v5_apply, val_main_call0_v4_apply,
    val_main_call0_cst_0_apply, val_main_call0_v3_apply, val_main_call0_v2_apply, val_main_call0_cst_apply,
    val_main_call0_v1_apply, val_main_call0_v0_apply, gate_at, up_at]
  simp only [Ideal.mulf_def, Ideal.hostDivf_def, Ideal.addf_def, Ideal.hostUnary_exp_def, Ideal.hostNegf_def,
    Ideal.negf_def, Ideal.ofBits_def, Ideal.ofBits_one_f32]
  rfl

/-! ## The result -/

/-- The reference's result array is the specification's. -/
theorem result_eq (x : FVec Ideal S1x2048x2048 .f32) (wg wu : FVec Ideal S8192x2048 .f32)
    (wd : FVec Ideal S2048x8192 .f32) :
    shapeCast _ (Host.dotGeneral dot_S2048x8192_S8192x2048_S2048x2048_1_0_0_1_n_n none (mulf (mulf (Host.dotGeneral dot_S2048x2048_S2048x8192_S2048x8192_1_0_0_1_n_n none (shapeCast _ (x) shapeCasts_S1x2048x2048_S2048x2048) (transpose S2048x8192 [1, 0] (wg) transposes_S8192x2048_S2048x8192_1_0)) (Host.divf (broadcastInDim S2048x8192 ![] bcast_S_S2048x8192 (constant S_ .f32 0x3F800000#32)) (addf (broadcastInDim S2048x8192 ![] bcast_S_S2048x8192 (constant S_ .f32 0x3F800000#32)) (Host.exp (Host.negf (Host.dotGeneral dot_S2048x2048_S2048x8192_S2048x8192_1_0_0_1_n_n none (shapeCast _ (x) shapeCasts_S1x2048x2048_S2048x2048) (transpose S2048x8192 [1, 0] (wg) transposes_S8192x2048_S2048x8192_1_0))))))) (Host.dotGeneral dot_S2048x2048_S2048x8192_S2048x8192_1_0_0_1_n_n none (shapeCast _ (x) shapeCasts_S1x2048x2048_S2048x2048) (transpose S2048x8192 [1, 0] (wu) transposes_S8192x2048_S2048x8192_1_0))) (transpose S8192x2048 [1, 0] (wd) transposes_S2048x8192_S8192x2048_1_0)) shapeCasts_S2048x2048_S1x2048x2048
      = G x wg wu wd := by
  rw [val_main_v9_eq (F := Ideal) x wg wu wd]
  funext i
  obtain ⟨a, r, o, rfl⟩ : ∃ (a : Fin 1) (r o : Fin 2048), i = ix3 a r o := ⟨i 0, i 1, i 2, eq_ix3 i⟩
  rw [val_main_v9_apply, idx_unflatten, val_main_v8_apply]
  unfold G
  refine Finset.sum_congr rfl fun h _ => ?_
  rw [lidx_down, ridx_down, hidden_at, val_main_v7_apply, idx_downT]

end Cert.Swiglu.RefValue

end
-- ==== Proof.LibMatmulNT.lean ====
/-
  A matrix product against a transposed right operand, on the extended reals, read at an index.

  For `x` of shape [M, K] and `w` of shape [N, K], contracting the second axis of both into a zero accumulator,
  entry (p, q) of the product is Σ_k x[p,k] · w[q,k]: the product's element is the sum over the contraction's
  index space of the two operands at the indices the dimension numbers build, and with ONE contracted axis that
  index space is `Fin K`; the left index keeps the output's row and takes `k` on its second axis, the right
  index keeps the output's column as ITS row and takes `k` on its second axis.
-/
import Idealize.ShloMosaic.PureOps.Ideal.Laws
import Idealize.ShloMosaic.Lib.ValueIdx

noncomputable section

namespace Cert.Hand.Lib

open Idealize.ShloMosaic Idealize.ShloMosaic.ValueIdx

section
variable {M K N : Nat}

local notation "D" => DotDims.transposedRhs M K N

/-- The left index keeps the output's row. -/
theorem lhs_row (j : (⟨2, ![M, N]⟩ : Shape).Idx) (k : (D).contr.Idx) : ((D).lhsIdx j k 0).val = (j 0).val := by
  unfold DotDims.lhsIdx
  rw [dif_neg (show ¬(0 : Fin (⟨2, ![M, K]⟩ : Shape).rank) ∈ (D).lhsBatch by simp [DotDims.transposedRhs]),
    dif_pos (show (0 : Fin (⟨2, ![M, K]⟩ : Shape).rank) ∈ (D).lhsNonContracting by simp [DotDims.transposedRhs])]
  rfl

/-- The left index takes the contraction's coordinate on its second axis. -/
theorem lhs_col (j : (⟨2, ![M, N]⟩ : Shape).Idx) (k : (D).contr.Idx) : ((D).lhsIdx j k 1).val = (k ⟨0, (Nat.one_pos : 0 < 1)⟩).val :=
  (D).lhsIdx_val_of_single rfl j k

/-- The right index keeps the output's column as its row. -/
theorem rhs_row (j : (⟨2, ![M, N]⟩ : Shape).Idx) (k : (D).contr.Idx) : ((D).rhsIdx j k 0).val = (j 1).val := by
  unfold DotDims.rhsIdx
  rw [dif_neg (show ¬(0 : Fin (⟨2, ![N, K]⟩ : Shape).rank) ∈ (D).rhsBatch by simp [DotDims.transposedRhs]),
    dif_pos (show (0 : Fin (⟨2, ![N, K]⟩ : Shape).rank) ∈ (D).rhsNonContracting by simp [DotDims.transposedRhs])]
  rfl

/-- The right index takes the contraction's coordinate on its second axis. -/
theorem rhs_col (j : (⟨2, ![M, N]⟩ : Shape).Idx) (k : (D).contr.Idx) : ((D).rhsIdx j k 1).val = (k ⟨0, (Nat.one_pos : 0 < 1)⟩).val :=
  (D).rhsIdx_val_of_single rfl j k

/-- Entry (p, q) of `x · wᵀ` into a zero accumulator is the sum over the shared coordinate. -/
theorem matmul_transposedRhs_apply {φ₁ φ₂ : FTy}
    (x : FVec Ideal (⟨2, ![M, K]⟩ : Shape) φ₁) (w : FVec Ideal (⟨2, ![N, K]⟩ : Shape) φ₂) (p : Fin M) (q : Fin N) :
    FloatOps.matmul (D) none x w (constant (F := Ideal) (⟨2, ![M, N]⟩ : Shape) .f32 0x00000000#32) (ix2 p q)
      = ∑ k : Fin K, x (ix2 p k) * w (ix2 q k) := by
  rw [Ideal.matmul_constant_zero_apply, ← Equiv.sum_comp (contrEquiv1 (D) K rfl rfl).symm]
  refine Finset.sum_congr rfl fun k _ => ?_
  have hk := contrEquiv1_symm_val (D) K rfl rfl k
  have el : (D).lhsIdx (ix2 p q) ((contrEquiv1 (D) K rfl rfl).symm k) = ix2 p k :=
    funext fun a => Fin.ext (by
      match a with
      | ⟨0, _⟩ => exact lhs_row _ _
      | ⟨1, _⟩ => exact (lhs_col _ _).trans hk)
  have er : (D).rhsIdx (ix2 p q) ((contrEquiv1 (D) K rfl rfl).symm k) = ix2 q k :=
    funext fun a => Fin.ext (by
      match a with
      | ⟨0, _⟩ => exact rhs_row _ _
      | ⟨1, _⟩ => exact (rhs_col _ _).trans hk)
  rw [el, er]

end

end Cert.Hand.Lib

end
-- ==== Proof.KernelMath.lean ====
/-
  The kernel's pure values at an index, over the extended reals. Narrowing to a shorter float format is the identity
  there, a shape cast to the same shape is the identity, and a matrix product against a transposed right operand into
  a zero accumulator is the sum over the shared coordinate. So: the hidden block at (r, q) is (g · logistic g) · u
  with g and u the sums over the 2048 input entries of row r against row q of the gate and up weight blocks; each
  accumulation step at (r, q) adds to the carried value the sum over 512 hidden units of the hidden block's row r
  against row q of the down-weight block; and the initial accumulator is zero everywhere.
-/
import proofs.«150734_g21122649162411_cont_8to1_2030_21_alg».proof.Proof.Gen.KernelIdeal.Skeleton
import proofs.«150734_g21122649162411_cont_8to1_2030_21_alg».proof.Proof.LibMatmulNT
import Idealize.ShloMosaic.Lib.ValueIdx
import Idealize.ShloMosaic.Lib.Pipeline.Value
import Idealize.ShloMosaic.PureOps.Ideal.Laws

noncomputable section

namespace Cert.Swiglu.KernelMath

open Cert.KernelIdeal Cert.KernelIdeal.Gen Idealize.ShloMosaic Idealize.ShloMosaic.ValueIdx
open scoped BigOperators

variable [Cert.KernelIdeal.Facts]

/-- Row r of a [2048, 2048] array against row q of a [256, 2048] array: the product against the transposed right
    operand into a zero accumulator, read at (r, q). Narrowing the operands changes nothing. -/
theorem proj_apply (a : Vec Ideal S2048x2048 .f32) (b : Vec Ideal S256x2048 .f32) (r : Fin 2048) (q : Fin 256) :
    matmul dot_S2048x2048_S256x2048_S2048x256_1_1_0_0_n_n none
        (truncf .bf16 (shapeCast S2048x2048 a shapeCasts_S2048x2048_S2048x2048) bitsLt_bf16_f32 : FVec Ideal S2048x2048 .bf16)
        (truncf .bf16 b bitsLt_bf16_f32 : FVec Ideal S256x2048 .bf16)
        (constant (F := Ideal) S2048x256 .f32 0x00000000#32) (ix2 r q)
      = ∑ k : Fin 2048, a (ix2 r k) * b (ix2 q k) := by
  rw [shapeCast_self]
  exact Cert.Hand.Lib.matmul_transposedRhs_apply (M := 2048) (K := 2048) (N := 256)
    (truncf .bf16 a bitsLt_bf16_f32 : FVec Ideal S2048x2048 .bf16) (truncf .bf16 b bitsLt_bf16_f32 : FVec Ideal S256x2048 .bf16) r q

/-- The hidden block at (r, q): the gate sum times its logistic, times the up sum. -/
theorem pay9_apply (x0 : Vec Ideal S2048x2048 .f32) (g0 u0 : Vec Ideal S256x2048 .f32) (r : Fin 2048) (q : Fin 256) :
    k0_pay9 x0 g0 u0 (ix2 r q)
      = ((∑ k : Fin 2048, x0 (ix2 r k) * g0 (ix2 q k)) * Ideal.logistic (∑ k : Fin 2048, x0 (ix2 r k) * g0 (ix2 q k)))
        * (∑ k : Fin 2048, x0 (ix2 r k) * u0 (ix2 q k)) := by
  unfold k0_pay9
  rw [shapeCast_self]
  rw [← proj_apply x0 g0 r q, ← proj_apply x0 u0 r q]
  rfl

/-- One accumulation step at (r, q): the carried value plus the sum over the 512 shared hidden units. -/
theorem acc_apply (v : Vec Ideal S2048x512 .bf16) (w : Vec Ideal S256x512 .f32) (oo : Vec Ideal S2048x256 .f32)
    (r : Fin 2048) (q : Fin 256) :
    addf (shapeCast S2048x256 oo shapeCasts_S2048x256_S2048x256)
        (matmul (φ₁ := .bf16) dot_S2048x512_S256x512_S2048x256_1_1_0_0_n_n none v
          (truncf .bf16 w bitsLt_bf16_f32 : FVec Ideal S256x512 .bf16) (constant (F := Ideal) S2048x256 .f32 0x00000000#32)) (ix2 r q)
      = oo (ix2 r q) + ∑ k : Fin 512, v (ix2 r k) * w (ix2 q k) := by
  rw [shapeCast_self]
  exact congrArg (oo (ix2 r q) + ·)
    (Cert.Hand.Lib.matmul_transposedRhs_apply (M := 2048) (K := 512) (N := 256) (φ₁ := .bf16) v
      (truncf .bf16 w bitsLt_bf16_f32 : FVec Ideal S256x512 .bf16) r q)

/-- Accumulation step 1: the carried block plus the product of the hidden block against the down-weight block. -/
theorem pay1_apply (v : Vec Ideal S2048x512 .bf16) (w : Vec Ideal S256x512 .f32) (oo : Vec Ideal S2048x256 .f32)
    (r : Fin 2048) (q : Fin 256) :
    k0_pay1 v w oo (ix2 r q) = oo (ix2 r q) + ∑ k : Fin 512, v (ix2 r k) * w (ix2 q k) :=
  acc_apply v w oo r q

/-- Accumulation step 2: the carried block plus the product of the hidden block against the down-weight block. -/
theorem pay2_apply (v : Vec Ideal S2048x512 .bf16) (w : Vec Ideal S256x512 .f32) (oo : Vec Ideal S2048x256 .f32)
    (r : Fin 2048) (q : Fin 256) :
    k0_pay2 v w oo (ix2 r q) = oo (ix2 r q) + ∑ k : Fin 512, v (ix2 r k) * w (ix2 q k) :=
  acc_apply v w oo r q

/-- Accumulation step 3: the carried block plus the product of the hidden block against the down-weight block. -/
theorem pay3_apply (v : Vec Ideal S2048x512 .bf16) (w : Vec Ideal S256x512 .f32) (oo : Vec Ideal S2048x256 .f32)
    (r : Fin 2048) (q : Fin 256) :
    k0_pay3 v w oo (ix2 r q) = oo (ix2 r q) + ∑ k : Fin 512, v (ix2 r k) * w (ix2 q k) :=
  acc_apply v w oo r q

/-- Accumulation step 4: the carried block plus the product of the hidden block against the down-weight block. -/
theorem pay4_apply (v : Vec Ideal S2048x512 .bf16) (w : Vec Ideal S256x512 .f32) (oo : Vec Ideal S2048x256 .f32)
    (r : Fin 2048) (q : Fin 256) :
    k0_pay4 v w oo (ix2 r q) = oo (ix2 r q) + ∑ k : Fin 512, v (ix2 r k) * w (ix2 q k) :=
  acc_apply v w oo r q

/-- Accumulation step 5: the carried block plus the product of the hidden block against the down-weight block. -/
theorem pay5_apply (v : Vec Ideal S2048x512 .bf16) (w : Vec Ideal S256x512 .f32) (oo : Vec Ideal S2048x256 .f32)
    (r : Fin 2048) (q : Fin 256) :
    k0_pay5 v w oo (ix2 r q) = oo (ix2 r q) + ∑ k : Fin 512, v (ix2 r k) * w (ix2 q k) :=
  acc_apply v w oo r q

/-- Accumulation step 6: the carried block plus the product of the hidden block against the down-weight block. -/
theorem pay6_apply (v : Vec Ideal S2048x512 .bf16) (w : Vec Ideal S256x512 .f32) (oo : Vec Ideal S2048x256 .f32)
    (r : Fin 2048) (q : Fin 256) :
    k0_pay6 v w oo (ix2 r q) = oo (ix2 r q) + ∑ k : Fin 512, v (ix2 r k) * w (ix2 q k) :=
  acc_apply v w oo r q

/-- Accumulation step 7: the carried block plus the product of the hidden block against the down-weight block. -/
theorem pay7_apply (v : Vec Ideal S2048x512 .bf16) (w : Vec Ideal S256x512 .f32) (oo : Vec Ideal S2048x256 .f32)
    (r : Fin 2048) (q : Fin 256) :
    k0_pay7 v w oo (ix2 r q) = oo (ix2 r q) + ∑ k : Fin 512, v (ix2 r k) * w (ix2 q k) :=
  acc_apply v w oo r q

/-- Accumulation step 8: the carried block plus the product of the hidden block against the down-weight block. -/
theorem pay8_apply (v : Vec Ideal S2048x512 .bf16) (w : Vec Ideal S256x512 .f32) (oo : Vec Ideal S2048x256 .f32)
    (r : Fin 2048) (q : Fin 256) :
    k0_pay8 v w oo (ix2 r q) = oo (ix2 r q) + ∑ k : Fin 512, v (ix2 r k) * w (ix2 q k) :=
  acc_apply v w oo r q

/-- The initial accumulator is zero at every index. -/
theorem pay10_apply (i : S2048x2048.Idx) : (k0_pay10 (F := Ideal)) i = 0 := by
  show Ideal.ofBits .f32 0x00000000#32 = 0
  exact Ideal.ofBits_zero_f32

end Cert.Swiglu.KernelMath

end
-- ==== Proof.OutMath.lean ====
/-
  The output block's stored contents at an index, over the extended reals. A load through a whole rectangle at zero
  offsets reads the operand, and one store through it leaves its payload; so the hidden block a point computes is
  (g · logistic g) · u of the sums over the 2048 input entries, and the zeroed output block is zero everywhere. An
  odd point's eight stores tile the 2048 × 2048 output block by column blocks of 256: the store through column block
  j holds, at (a, b), the old value at (a, 256·j + b) plus the sum over the 512 scratch columns of the scratch row a
  against row 256·j + b of the down-weight block, so at every index (r, c) the result is the old value plus the sum
  over k of scratch (r, k) times down weight (c, k). Last, the scratch assembled from two stores of 256 columns each
  reads the left store at a column below 256 and the right store, shifted by 256, at the others.
-/
import proofs.«150734_g21122649162411_cont_8to1_2030_21_alg».proof.Proof.BodyIdeal
import proofs.«150734_g21122649162411_cont_8to1_2030_21_alg».proof.Proof.KernelMath
import Idealize.ShloMosaic.Lib.Pipeline.Value
import Idealize.ShloMosaic.Lib.Pipeline.FrameBody

noncomputable section

namespace Cert.Swiglu.OutMath

open Cert.KernelIdeal Cert.KernelIdeal.Gen Cert.KernelIdeal.Body Idealize.ShloMosaic Idealize.ShloMosaic.ValueIdx
open scoped BigOperators

variable [Cert.KernelIdeal.Facts]

/-- The zero offsets of a rank-2 rectangle, however spelt. -/
theorem hz : (![0, 0] : Fin 2 → Nat) = fun _ => 0 := funext fun a => by fin_cases a <;> rfl

/-- The hidden block a point computes, at (r, q). -/
theorem zPay_apply (x : Vec Ideal S2048x2048 .f32) (wg wu : Vec Ideal S256x2048 .f32) (r : Fin 2048) (q : Fin 256) :
    zPay x wg wu (ix2 r q)
      = ((∑ k : Fin 2048, x (ix2 r k) * wg (ix2 q k)) * Ideal.logistic (∑ k : Fin 2048, x (ix2 r k) * wg (ix2 q k)))
        * (∑ k : Fin 2048, x (ix2 r k) * wu (ix2 q k)) := by
  have hx : View.ld x RX = x := View.ld_unit_zero (S := S2048x2048) hz _ x
  have hg : View.ld wg RW = wg := View.ld_unit_zero (S := S256x2048) hz _ wg
  have hu : View.ld wu RW = wu := View.ld_unit_zero (S := S256x2048) hz _ wu
  show k0_pay9 (View.ld x RX) (View.ld wg RW) (View.ld wu RW) (ix2 r q) = _
  rw [hx, hg, hu]
  exact KernelMath.pay9_apply x wg wu r q

/-- The zeroed output block is zero at every index. -/
theorem zeroOut_apply (i : S2048x2048.Idx) : (zeroOut (F := Ideal)) i = 0 := by
  show View.canon [(⟨RX, k0_pay10 (F := Ideal)⟩ : View.Piece (Elt Ideal) S2048x2048 .f32)] i = 0
  rw [View.canon_unit_zero (S := S2048x2048) hz]
  exact KernelMath.pay10_apply i

/-- What an odd point leaves at an index of the output block: the old value plus the scratch row against the
    down-weight row of the index's column. -/
def downAt (V : Vec Ideal S2048x512 .bf16) (wd : Vec Ideal S2048x512 .f32) (o : Vec Ideal S2048x2048 .f32) :
    S2048x2048.Idx → EReal :=
  fun i => o i + ∑ k : Fin 512, V (ix2 (n0 := 2048) (n1 := 512) (i 0) k) * wd (ix2 (n0 := 2048) (n1 := 512) (i 1) k)

/-- Column block at column offset c against down-weight rows from c: the store's value at (a, b) is `downAt` at the
    store's index (a, c + b). -/
theorem block_eq (c : Nat) (inbO : ∀ a, (![0, c] : Fin 2 → Nat) a + S2048x256.size a ≤ S2048x2048.size a)
    (inbW : ∀ a, (![c, 0] : Fin 2 → Nat) a + S256x512.size a ≤ S2048x512.size a)
    (V : Vec Ideal S2048x512 .bf16) (wd : Vec Ideal S2048x512 .f32) (o : Vec Ideal S2048x2048 .f32)
    (a : Fin 2048) (b : Fin 256) :
    View.ld o (Rect.unit (s := S2048x2048) ![0, c] S2048x256.size inbO) (ix2 a b)
        + ∑ k : Fin 512, V (ix2 a k) * View.ld wd (Rect.unit (s := S2048x512) ![c, 0] S256x512.size inbW) (ix2 b k)
      = downAt V wd o ((Rect.unit (s := S2048x2048) ![0, c] S2048x256.size inbO).emb (ix2 a b)) := by
  have e0 : (((Rect.unit (s := S2048x2048) ![0, c] S2048x256.size inbO).emb (ix2 a b)) 0).val = a.val := by
    show 0 + 1 * a.val = a.val; omega
  have e1 : (((Rect.unit (s := S2048x2048) ![0, c] S2048x256.size inbO).emb (ix2 a b)) 1).val = c + b.val := by
    show c + 1 * b.val = c + b.val; omega
  unfold downAt
  refine congrArg (o ((Rect.unit (s := S2048x2048) ![0, c] S2048x256.size inbO).emb (ix2 a b)) + ·)
    (Finset.sum_congr rfl fun k _ => ?_)
  have hV : (ix2 a k : S2048x512.Idx)
      = ix2 (n0 := 2048) (n1 := 512) (((Rect.unit (s := S2048x2048) ![0, c] S2048x256.size inbO).emb (ix2 a b)) 0) k :=
    funext fun d => Fin.ext (by match d with | ⟨0, _⟩ => exact e0.symm | ⟨1, _⟩ => rfl)
  have hW : (Rect.unit (s := S2048x512) ![c, 0] S256x512.size inbW).idx (ix2 b k)
      = ix2 (n0 := 2048) (n1 := 512) (((Rect.unit (s := S2048x2048) ![0, c] S2048x256.size inbO).emb (ix2 a b)) 1) k :=
    funext fun d => Fin.ext (by
      match d with
      | ⟨0, _⟩ => exact (show c + 1 * b.val = c + b.val by omega).trans e1.symm
      | ⟨1, _⟩ => show 0 + 1 * k.val = k.val; omega)
  exact congrArg₂ (· * ·) (congrArg V hV) (congrArg wd hW)

/-- Every one of the eight stores holds `downAt` at its indices. -/
theorem pieces_eq (V : Vec Ideal S2048x512 .bf16) (wd : Vec Ideal S2048x512 .f32) (o : Vec Ideal S2048x2048 .f32) :
    ∀ p ∈ downPieces V wd o, ∀ x : p.1.shape.Idx, p.2 x = downAt V wd o (p.1.emb x) := by
  intro p hp
  simp only [List.mem_cons, List.mem_nil_iff, or_false] at hp
  rcases hp with rfl | rfl | rfl | rfl | rfl | rfl | rfl | rfl
  · intro x
    obtain ⟨a, b, rfl⟩ : ∃ (a : Fin 2048) (b : Fin 256), x = ix2 a b := ⟨x 0, x 1, eq_ix2 x⟩
    exact (KernelMath.pay8_apply V _ _ a b).trans (block_eq 1792 _ _ V wd o a b)
  · intro x
    obtain ⟨a, b, rfl⟩ : ∃ (a : Fin 2048) (b : Fin 256), x = ix2 a b := ⟨x 0, x 1, eq_ix2 x⟩
    exact (KernelMath.pay7_apply V _ _ a b).trans (block_eq 1536 _ _ V wd o a b)
  · intro x
    obtain ⟨a, b, rfl⟩ : ∃ (a : Fin 2048) (b : Fin 256), x = ix2 a b := ⟨x 0, x 1, eq_ix2 x⟩
    exact (KernelMath.pay6_apply V _ _ a b).trans (block_eq 1280 _ _ V wd o a b)
  · intro x
    obtain ⟨a, b, rfl⟩ : ∃ (a : Fin 2048) (b : Fin 256), x = ix2 a b := ⟨x 0, x 1, eq_ix2 x⟩
    exact (KernelMath.pay5_apply V _ _ a b).trans (block_eq 1024 _ _ V wd o a b)
  · intro x
    obtain ⟨a, b, rfl⟩ : ∃ (a : Fin 2048) (b : Fin 256), x = ix2 a b := ⟨x 0, x 1, eq_ix2 x⟩
    exact (KernelMath.pay4_apply V _ _ a b).trans (block_eq 768 _ _ V wd o a b)
  · intro x
    obtain ⟨a, b, rfl⟩ : ∃ (a : Fin 2048) (b : Fin 256), x = ix2 a b := ⟨x 0, x 1, eq_ix2 x⟩
    exact (KernelMath.pay3_apply V _ _ a b).trans (block_eq 512 _ _ V wd o a b)
  · intro x
    obtain ⟨a, b, rfl⟩ : ∃ (a : Fin 2048) (b : Fin 256), x = ix2 a b := ⟨x 0, x 1, eq_ix2 x⟩
    exact (KernelMath.pay2_apply V _ _ a b).trans (block_eq 256 _ _ V wd o a b)
  · intro x
    obtain ⟨a, b, rfl⟩ : ∃ (a : Fin 2048) (b : Fin 256), x = ix2 a b := ⟨x 0, x 1, eq_ix2 x⟩
    exact (KernelMath.pay1_apply V _ _ a b).trans (block_eq 0 _ _ V wd o a b)

/-- After an odd point, every index of the output block holds `downAt`. -/
theorem downOut_eq (V : Vec Ideal S2048x512 .bf16) (wd : Vec Ideal S2048x512 .f32) (o : Vec Ideal S2048x2048 .f32)
    (y : S2048x2048.Idx) : downOut V wd o y = downAt V wd o y :=
  View.canon_apply_of_pieces (downAt V wd o) (downPieces V wd o) (pieces_eq V wd o) y (coverDown _ _ _ _ _ _ _ _ y)

/-- After an odd point, column 256·j + q of row r: the old value plus the sum over the 512 scratch columns. -/
theorem downOut_apply (V : Vec Ideal S2048x512 .bf16) (wd : Vec Ideal S2048x512 .f32) (o : Vec Ideal S2048x2048 .f32)
    (r : Fin 2048) (j : Fin 8) (q : Fin 256) :
    downOut V wd o (ix2 r ⟨256 * j.val + q.val, by omega⟩)
      = o (ix2 r ⟨256 * j.val + q.val, by omega⟩)
        + ∑ k : Fin 512, V (ix2 r k) * wd (ix2 ⟨256 * j.val + q.val, by omega⟩ k) :=
  downOut_eq V wd o _

/-- The scratch from two stores of 256 columns, the right one last: a column below 256 reads the left store, the
    others read the right store 256 columns earlier. -/
theorem halves_apply (inbR : ∀ a, (![0, 256] : Fin 2 → Nat) a + S2048x256.size a ≤ S2048x512.size a)
    (inbL : ∀ a, (![0, 0] : Fin 2 → Nat) a + S2048x256.size a ≤ S2048x512.size a)
    (p q : Vec Ideal S2048x256 .bf16) (r : Fin 2048) (k : Fin 512) :
    View.canon ([⟨Rect.unit (s := S2048x512) ![0, 256] S2048x256.size inbR, p⟩,
        ⟨Rect.unit (s := S2048x512) ![0, 0] S2048x256.size inbL, q⟩] : List (View.Piece (Elt Ideal) S2048x512 .bf16)) (ix2 r k)
      = if h : k.val < 256 then q (ix2 r ⟨k.val, h⟩) else p (ix2 r ⟨k.val - 256, by omega⟩) := by
  by_cases h : k.val < 256
  · rw [dif_pos h, View.canon_cons_of_not_mem]
    · have e : (ix2 r k : S2048x512.Idx)
          = (Rect.unit (s := S2048x512) ![0, 0] S2048x256.size inbL).emb (ix2 r ⟨k.val, h⟩) :=
        funext fun d => Fin.ext (by
          match d with
          | ⟨0, _⟩ => show r.val = 0 + 1 * r.val; omega
          | ⟨1, _⟩ => show k.val = 0 + 1 * k.val; omega)
      rw [e]
      exact View.canon_cons_emb (Val := Elt Ideal) (e := .bf16) (Rect.unit (s := S2048x512) ![0, 0] S2048x256.size inbL) q [] (ix2 r ⟨k.val, h⟩)
    · intro hm
      have := ((Rect.mem_set_unit (s := S2048x512) (off := ![0, 256]) (size := S2048x256.size) (inb := inbR) (i := ix2 r k)).mp hm 1).1
      have h256 : 256 ≤ k.val := this
      omega
  · rw [dif_neg h]
    have e : (ix2 r k : S2048x512.Idx)
        = (Rect.unit (s := S2048x512) ![0, 256] S2048x256.size inbR).emb (ix2 r ⟨k.val - 256, by omega⟩) :=
      funext fun d => Fin.ext (by
        match d with
        | ⟨0, _⟩ => show r.val = 0 + 1 * r.val; omega
        | ⟨1, _⟩ => show k.val = 256 + 1 * (k.val - 256); omega)
    rw [e]
    exact View.canon_cons_emb (Val := Elt Ideal) (e := .bf16) (Rect.unit (s := S2048x512) ![0, 256] S2048x256.size inbR) p _ (ix2 r ⟨k.val - 256, by omega⟩)

end Cert.Swiglu.OutMath

end
-- ==== Proof.LibBlockSum.lean ====
/-
  Two general facts for reading a blocked array back as one function:
  * a sum over a·b consecutive naturals is the sum, over a blocks, of the sums over the b entries of each block; so a
    running sum over blocks of b rows, after all a blocks, is the sum over all a·b rows;
  * two functions on a two-axis index set that agree at every pair of coordinates are equal.
-/
import Mathlib.Algebra.BigOperators.Fin
import Idealize.ShloMosaic.Lib.ValueIdx

namespace LibBlockSum

open Idealize.ShloMosaic Idealize.ShloMosaic.ValueIdx

/-- A sum over the first a·b naturals, block by block. -/
theorem sum_range_mul {M : Type*} [AddCommMonoid M] (f : ℕ → M) (b : ℕ) :
    ∀ a : ℕ, ∑ r ∈ Finset.range (a * b), f r = ∑ s ∈ Finset.range a, ∑ p ∈ Finset.range b, f (s * b + p)
  | 0 => by simp
  | a + 1 => by
    rw [Nat.succ_mul, Finset.sum_range_add, sum_range_mul f b a, Finset.sum_range_succ]

/-- The sum over a blocks of the sums over each block's b entries is the sum over all N = a·b entries. -/
theorem sum_blocks {M : Type*} [AddCommMonoid M] (f : ℕ → M) (a b N : ℕ) (h : a * b = N) :
    ∑ s ∈ Finset.range a, ∑ p : Fin b, f (s * b + p.val) = ∑ n : Fin N, f n.val := by
  subst h
  rw [← Finset.sum_range (fun r => f r), sum_range_mul f b a]
  refine Finset.sum_congr rfl fun s _ => ?_
  exact (Finset.sum_range (fun p => f (s * b + p))).symm

/-- Functions on a two-axis index set that agree at every pair of coordinates are equal. -/
theorem ext_ix2 {A B : ℕ} {α : Type} (z g : (⟨2, ![A, B]⟩ : Shape).Idx → α)
    (h : ∀ (p : Fin A) (q : Fin B), z (ix2 p q) = g (ix2 p q)) : z = g :=
  funext fun y => by rw [eq_ix2 y]; exact h _ _

end LibBlockSum
-- ==== Proof.BlockFold.lean ====
/-
  Folding sixteen blocks of 512 hidden units: a running sum that starts from zero plus the first block and adds each
  later block on the right is, after the last block, the sum over all 8192 hidden units. Stated over the extended
  reals, where addition is commutative and associative; no finiteness is needed.
-/
import Mathlib.Data.EReal.Basic
import proofs.«150734_g21122649162411_cont_8to1_2030_21_alg».proof.Proof.LibBlockSum

namespace Cert.Swiglu

open scoped BigOperators

/-- Block `p` is the indices `512·p + k`; the fold starts from `0 +` block 0 and adds blocks 1 to 15 on the right. -/
theorem fold_blocks (f : Fin 8192 → EReal) (S : ℕ → EReal)
    (h0 : S 0 = 0 + ∑ k : Fin 512, f ⟨k.val, by omega⟩)
    (hs : ∀ p : ℕ, (hp : p + 1 < 16) → S (p + 1) = S p + ∑ k : Fin 512, f ⟨512 * (p + 1) + k.val, by omega⟩) :
    S 15 = ∑ h : Fin 8192, f h := by
  classical
  -- the summand extended by zero beyond the 8192 indices, so that blocks are sums over naturals
  let g : ℕ → EReal := fun n => if h : n < 8192 then f ⟨n, h⟩ else 0
  have hg : ∀ (n : ℕ) (h : n < 8192), g n = f ⟨n, h⟩ := fun n h => dif_pos h
  -- after block p the running sum is the sum of blocks 0 to p
  have key : ∀ p : ℕ, p < 16 → S p = ∑ s ∈ Finset.range (p + 1), ∑ k : Fin 512, g (s * 512 + k.val) := by
    intro p
    induction p with
    | zero =>
      intro _
      rw [h0, zero_add, Finset.sum_range_one]
      refine Finset.sum_congr rfl fun k _ => ?_
      rw [hg (0 * 512 + k.val) (by omega)]
      exact congrArg f (Fin.ext (by show k.val = 0 * 512 + k.val; omega))
    | succ p ih =>
      intro hp
      rw [hs p hp, ih (by omega), Finset.sum_range_succ _ (p + 1)]
      congr 1
      refine Finset.sum_congr rfl fun k _ => ?_
      rw [hg ((p + 1) * 512 + k.val) (by omega)]
      exact congrArg f (Fin.ext (by show 512 * (p + 1) + k.val = (p + 1) * 512 + k.val; omega))
  rw [key 15 (by norm_num), LibBlockSum.sum_blocks g 16 512 8192 rfl]
  exact Finset.sum_congr rfl fun n _ => hg n.val n.isLt

end Cert.Swiglu
-- ==== Proof.ValueIdeal.lean ====
/-
  The value of the kernel at the exact extended reals. The region stages the whole flattened input at every point,
  rows 256·t … 256·t + 255 of the gate and up weights at point t, and columns 512·(t / 2) … of the down weights at
  points t and t + 1 of a pair. So the block of hidden values point t stores is hidden units 256·t … 256·t + 255 of
  every row, the scratch an odd point reads is hidden units 512·p … 512·p + 511 (p = t / 2), and the point adds to
  every output entry (r, o) the sum over those 512 units of the hidden value times the down weight (o, h). The output
  block starts at zero and is written back once, after the last point: entry (r, o) is ((0 + B₀) + B₁) + … + B₁₅ with
  Bₚ the p-th block of 512 terms, which is the sum over all 8192 hidden units (addition on the extended reals is
  associative and commutative; nothing else is used). The host's reshapes before and after the region only drop and
  restore the leading unit axis.
-/
import proofs.«150734_g21122649162411_cont_8to1_2030_21_alg».proof.Proof.LaunchIdeal
import proofs.«150734_g21122649162411_cont_8to1_2030_21_alg».proof.Proof.Spec
import proofs.«150734_g21122649162411_cont_8to1_2030_21_alg».proof.Proof.OutMath
import proofs.«150734_g21122649162411_cont_8to1_2030_21_alg».proof.Proof.BlockFold
import Idealize.ShloMosaic.Lib.Pipeline.Value
import Idealize.ShloMosaic.Lib.ValueIdx
import Idealize.ShloMosaic.Lib.StableHlo.Run

noncomputable section

namespace Cert.KernelIdeal.Body

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ)

/-- The four argument arrays on core `c`. -/
abbrev aX (c : Dev nD) : FVec Ideal S1x2048x2048 .f32 := m ((c : Thread nD τ).loc main_arg0)
abbrev aWg (c : Dev nD) : FVec Ideal S8192x2048 .f32 := m ((c : Thread nD τ).loc main_arg1)
abbrev aWu (c : Dev nD) : FVec Ideal S8192x2048 .f32 := m ((c : Thread nD τ).loc main_arg2)
abbrev aWd (c : Dev nD) : FVec Ideal S2048x8192 .f32 := m ((c : Thread nD τ).loc main_arg3)

/-! ## The two reshapes read at an index -/

theorem flat_apply (X : FVec Ideal S1x2048x2048 .f32) (h : S1x2048x2048.ShapeCasts S2048x2048) (r k : Fin 2048) :
    shapeCast S2048x2048 X h (ix2 r k) = X (ix3 (0 : Fin 1) r k) :=
  shapeCast_apply X h (ix2 r k) (ix3 (0 : Fin 1) r k)
    (by rewrite [Shape.rowMajor_val_three, Shape.rowMajor_val_two]; show (0 * 2048 + r.val) * 2048 + k.val = r.val * 2048 + k.val; omega)

theorem unflat_apply (Y : FVec Ideal S2048x2048 .f32) (h : S2048x2048.ShapeCasts S1x2048x2048) (a : Fin 1) (r o : Fin 2048) :
    shapeCast S1x2048x2048 Y h (ix3 a r o) = Y (ix2 r o) :=
  shapeCast_apply Y h (ix3 a r o) (ix2 r o)
    (by rewrite [Shape.rowMajor_val_two, Shape.rowMajor_val_three]; have := a.isLt; show r.val * 2048 + o.val = (a.val * 2048 + r.val) * 2048 + o.val; omega)

/-- The flattened input as the region finds it: the host's reshape of the input array. -/
theorem V_v0 (c : Dev nD) : (V m c main_v0 : S2048x2048.Idx → EReal) = shapeCast S2048x2048 (aX m c) shapeCasts_S1x2048x2048_S2048x2048 := by
  show StableHlo.after hostOps0 (fun b => m (c, b)) (Proc.devRef .tc main_v0) = _
  after_results
  rfl

/-! ## Where each window's block sits in its array -/

theorem idx0 : ∀ (t : Fin cfg0.N) (a : Fin 2), (cfg0.win 0).index t a * (cfg0.win 0).size a = (![0, 0] : Fin 2 → Nat) a := by decide +kernel
theorem idx1 : ∀ (t : Fin cfg0.N) (a : Fin 2), (cfg0.win 1).index t a * (cfg0.win 1).size a = (![256 * t.val, 0] : Fin 2 → Nat) a := by decide +kernel
theorem idx2 : ∀ (t : Fin cfg0.N) (a : Fin 2), (cfg0.win 2).index t a * (cfg0.win 2).size a = (![256 * t.val, 0] : Fin 2 → Nat) a := by decide +kernel
theorem idx3 : ∀ (t : Fin cfg0.N) (a : Fin 2), (cfg0.win 3).index t a * (cfg0.win 3).size a = (![0, 512 * (t.val / 2)] : Fin 2 → Nat) a := by decide +kernel
theorem idx4 : ∀ (t : Fin cfg0.N) (a : Fin 2), (cfg0.win 4).index t a * (cfg0.win 4).size a = (![0, 0] : Fin 2 → Nat) a := by decide +kernel

/-- The input block is the whole flattened input at every point. -/
theorem xblk (c : Dev nD) (t : Fin cfg0.N) (r k : Fin 2048) : (iblk m c 0 t : Vec Ideal S2048x2048 .f32) (ix2 r k) = aX m c (ix3 (0 : Fin 1) r k) := by
  show V m c main_v0 (((cfg0.win 0).blk t).view.emb (ix2 r k)) = _
  have e : ((cfg0.win 0).blk t).view.emb (ix2 r k) = (ix2 r k : S2048x2048.Idx) := funext fun a => Fin.ext (by
    show (cfg0.win 0).index t a * (cfg0.win 0).size a + 1 * ((ix2 r k : S2048x2048.Idx) a).val = _
    rw [idx0]; fin_cases a <;> simp)
  rw [e, V_v0, flat_apply]

/-- Point `t`'s gate rows are rows 256·t … of the gate weights; likewise the up rows. -/
theorem gblk (c : Dev nD) (t : Fin cfg0.N) (q : Fin 256) (k : Fin 2048) :
    (iblk m c 1 t : Vec Ideal S256x2048 .f32) (ix2 q k) = aWg m c (ix2 ⟨256 * t.val + q.val, by have := t.isLt; have := N_32; omega⟩ k) := by
  show V m c main_arg1 (((cfg0.win 1).blk t).view.emb (ix2 q k)) = _
  rw [V_main_arg1]
  refine congrArg _ (funext fun a => Fin.ext ?_)
  show (cfg0.win 1).index t a * (cfg0.win 1).size a + 1 * ((ix2 q k : S256x2048.Idx) a).val = _
  rw [idx1]; fin_cases a <;> simp
theorem ublk (c : Dev nD) (t : Fin cfg0.N) (q : Fin 256) (k : Fin 2048) :
    (iblk m c 2 t : Vec Ideal S256x2048 .f32) (ix2 q k) = aWu m c (ix2 ⟨256 * t.val + q.val, by have := t.isLt; have := N_32; omega⟩ k) := by
  show V m c main_arg2 (((cfg0.win 2).blk t).view.emb (ix2 q k)) = _
  rw [V_main_arg2]
  refine congrArg _ (funext fun a => Fin.ext ?_)
  show (cfg0.win 2).index t a * (cfg0.win 2).size a + 1 * ((ix2 q k : S256x2048.Idx) a).val = _
  rw [idx2]; fin_cases a <;> simp
/-- Point `t`'s block of down weights is columns 512·(t / 2) … of the down weights. -/
theorem dblk (c : Dev nD) (t : Fin cfg0.N) (o : Fin 2048) (k : Fin 512) :
    (iblk m c 3 t : Vec Ideal S2048x512 .f32) (ix2 o k) = aWd m c (ix2 o ⟨512 * (t.val / 2) + k.val, by have := t.isLt; have := N_32; omega⟩) := by
  show V m c main_arg3 (((cfg0.win 3).blk t).view.emb (ix2 o k)) = _
  rw [V_main_arg3]
  refine congrArg _ (funext fun a => Fin.ext ?_)
  show (cfg0.win 3).index t a * (cfg0.win 3).size a + 1 * ((ix2 o k : S2048x512.Idx) a).val = _
  rw [idx3]; fin_cases a <;> simp

/-! ## The result array -/

/-- The last point. -/
def tLast : Fin cfg0.N := ⟨31, by rw [N_32]; decide⟩

/-- The output array after the region is what the last point left in the output block. -/
theorem final4 (c : Dev nD) : (dats m 0 c).arrAt 4 cfg0.N = outA m c 31 tLast.isLt := by
  have hafter : (dats m 0 c).after 4 tLast = outA m c 31 tLast.isLt := after_4 m c tLast
  generalize outA m c 31 tLast.isLt = G at hafter ⊢
  refine (dats m 0 c).arrAt_eq_of_cover 4 G (fun t hf => ?_) (fun i => ⟨tLast, (flush0_4 tLast).mpr rfl, ?_⟩)
  · have h31 : t = tLast := Fin.ext (by have := (flush0_4 t).mp hf; have := t.isLt; have := N_32; show t.val = 31; omega)
    subst h31
    unfold Dat.flushed
    rw [hafter]
    funext y
    show G y = G (((cfg0.win 4).blk tLast).view.emb y)
    refine congrArg _ (funext fun a => Fin.ext ?_)
    show (y a).val = (cfg0.win 4).index tLast a * (cfg0.win 4).size a + 1 * (y a).val
    rw [idx4]; fin_cases a <;> simp
  · show i ∈ ((View.whole main_v1).slice (win0_4.rect tLast)).set
    rw [View.set_slice_whole, Rect.mem_set_unit]
    intro a
    have hi : (i a).val < S2048x2048.size a := (i a).isLt
    fin_cases a
    · show win0_4.index tLast 0 * win0_4.size 0 ≤ (i 0 : Nat) ∧ (i 0 : Nat) < win0_4.index tLast 0 * win0_4.size 0 + win0_4.xsize (grid0.coords tLast) 0
      rw [show win0_4.index tLast 0 * win0_4.size 0 = 0 from by decide +kernel, show win0_4.xsize (grid0.coords tLast) 0 = 2048 from by decide +kernel]
      exact ⟨Nat.zero_le _, by simpa using hi⟩
    · show win0_4.index tLast 1 * win0_4.size 1 ≤ (i 1 : Nat) ∧ (i 1 : Nat) < win0_4.index tLast 1 * win0_4.size 1 + win0_4.xsize (grid0.coords tLast) 1
      rw [show win0_4.index tLast 1 * win0_4.size 1 = 0 from by decide +kernel, show win0_4.xsize (grid0.coords tLast) 1 = 2048 from by decide +kernel]
      exact ⟨Nat.zero_le _, by simpa using hi⟩

/-- The host's last reshape restores the leading unit axis over the output array. -/
theorem tail_v2 (c : Dev nD) :
    (Pipeline.afterTail₀ cfgs (dats m) 0 (V0 m) [hostOps1] c main_v2 : S1x2048x2048.Idx → EReal)
      = shapeCast S1x2048x2048 ((dats m 0 c).arrAt 4 cfg0.N) shapeCasts_S2048x2048_S1x2048x2048 := by
  unfold Pipeline.afterTail₀
  show StableHlo.after hostOps1 _ (Proc.devRef .tc main_v2) = _
  after_results
  rw [Pipeline.withArrays_arr spec0 launch0.win.arr_inj c _ _ 4]
  rfl

/-! ## The hidden blocks and the running sum, entry by entry -/

section Entries

open Cert.Swiglu Cert.Swiglu.OutMath
open scoped BigOperators

/-- The block of hidden values point `t` computes is hidden units 256·t … 256·t + 255 of every row. -/
theorem zblk_apply (c : Dev nD) (t : Fin cfg0.N) (r : Fin 2048) (q : Fin 256) :
    zblk m c t (ix2 r q) = Cert.Swiglu.hidden (aX m c) (aWg m c) (aWu m c) r ⟨256 * t.val + q.val, by have := t.isLt; have := N_32; omega⟩ := by
  unfold zblk
  rw [zPay_apply]
  unfold Cert.Swiglu.hidden Cert.Swiglu.proj
  simp only [xblk, gblk, ublk]

/-- One term of output entry (r, o): hidden unit `h` of row `r` times the down weight (o, h). -/
def term (c : Dev nD) (r o : Fin 2048) (h : Fin 8192) : EReal :=
  Cert.Swiglu.hidden (aX m c) (aWg m c) (aWu m c) r h * aWd m c (ix2 o h)

theorem outA_congr (c : Dev nD) (k k' : ℕ) (h : k = k') (hk : k < cfg0.N) (hk' : k' < cfg0.N) : outA m c k hk = outA m c k' hk' := by
  subst h; rfl

/-- An odd point adds to entry (r, o) the terms of the 512 hidden units of its pair of blocks. -/
theorem outA_step (c : Dev nD) (t : Fin cfg0.N) (ht : t.val % 2 = 1) (hp : t.val - 1 < cfg0.N) (r o : Fin 2048) :
    outA m c t.val t.isLt (ix2 r o) = outA m c (t.val - 1) hp (ix2 r o)
      + ∑ k : Fin 512, term m c r o ⟨512 * (t.val / 2) + k.val, by have := t.isLt; have := N_32; omega⟩ := by
  rw [outA_odd m c t ht hp, downOut_eq]
  unfold downAt
  refine congrArg _ (Finset.sum_congr rfl fun k _ => ?_)
  show halves (zblk m c t) (zblk m c ⟨t.val - 1, hp⟩) (ix2 r k) * (iblk m c 3 t : Vec Ideal S2048x512 .f32) (ix2 o k) = _
  unfold halves
  rw [halves_apply zR_inb zL_inb, dblk]
  unfold term
  have hlt := t.isLt
  have hN := N_32
  by_cases hk : k.val < 256
  · rw [dif_pos hk, zblk_apply]
    refine congrArg (fun h => Cert.Swiglu.hidden (aX m c) (aWg m c) (aWu m c) r h * aWd m c (ix2 o ⟨512 * (t.val / 2) + k.val, _⟩)) (Fin.ext ?_)
    show 256 * (t.val - 1) + k.val = 512 * (t.val / 2) + k.val
    omega
  · rw [dif_neg hk, zblk_apply]
    refine congrArg (fun h => Cert.Swiglu.hidden (aX m c) (aWg m c) (aWu m c) r h * aWd m c (ix2 o ⟨512 * (t.val / 2) + k.val, _⟩)) (Fin.ext ?_)
    show 256 * t.val + (k.val - 256) = 512 * (t.val / 2) + k.val
    have := k.isLt
    omega

/-- After the last point entry (r, o) is the sum over all 8192 hidden units: the 16 pairs' sums added in order onto zero. -/
theorem out_last (c : Dev nD) (r o : Fin 2048) :
    outA m c 31 tLast.isLt (ix2 r o) = ∑ h : Fin 8192, term m c r o h := by
  have hN := N_32
  let S : ℕ → EReal := fun p => if h : 2 * p + 1 < cfg0.N then outA m c (2 * p + 1) h (ix2 r o) else 0
  have h15 : S 15 = outA m c 31 tLast.isLt (ix2 r o) := dif_pos (by omega)
  rw [← h15]
  refine fold_blocks (term m c r o) S ?_ ?_
  · show (if h : 2 * 0 + 1 < cfg0.N then outA m c (2 * 0 + 1) h (ix2 r o) else 0) = _
    rw [dif_pos (by omega)]
    have h1 := outA_step m c ⟨1, by omega⟩ rfl (by show 1 - 1 < cfg0.N; omega) r o
    refine h1.trans ?_
    refine congrArg₂ (· + ·) (zeroOut_apply _) (Finset.sum_congr rfl fun k _ => congrArg _ (Fin.ext ?_))
    show 512 * (1 / 2) + k.val = k.val
    omega
  · intro p hp
    show (if h : 2 * (p + 1) + 1 < cfg0.N then outA m c (2 * (p + 1) + 1) h (ix2 r o) else 0)
      = (if h : 2 * p + 1 < cfg0.N then outA m c (2 * p + 1) h (ix2 r o) else 0) + _
    rw [dif_pos (by omega), dif_pos (by omega)]
    have h1 := outA_step m c ⟨2 * (p + 1) + 1, by omega⟩ (by show (2 * (p + 1) + 1) % 2 = 1; omega)
      (by show 2 * (p + 1) + 1 - 1 < cfg0.N; omega) r o
    have h2 := outA_even m c ⟨2 * (p + 1), by omega⟩ (by show (2 * (p + 1)) % 2 = 0; omega) (by show 2 * (p + 1) ≠ 0; omega)
      (by show 2 * (p + 1) - 1 < cfg0.N; omega)
    refine h1.trans ?_
    refine congrArg₂ (· + ·) ?_ (Finset.sum_congr rfl fun k _ => congrArg _ (Fin.ext ?_))
    · rw [outA_congr m c (2 * (p + 1) + 1 - 1) (2 * (p + 1)) (by omega) _ (by omega)]
      exact (congrFun h2 _).trans (congrFun (outA_congr m c (2 * (p + 1) - 1) (2 * p + 1) (by omega) _ (by omega)) _)
    · show 512 * ((2 * (p + 1) + 1) / 2) + k.val = 512 * (p + 1) + k.val
      omega

end Entries

/-! ## The kernel's run -/

/-- The result array is the specification's function of the argument arrays. -/
theorem result_eq (c : Dev nD) :
    (shapeCast S1x2048x2048 ((dats m 0 c).arrAt 4 cfg0.N) shapeCasts_S2048x2048_S1x2048x2048 : S1x2048x2048.Idx → EReal)
      = Cert.Swiglu.G (aX m c) (aWg m c) (aWu m c) (aWd m c) := by
  funext i
  obtain ⟨a, r, o, rfl⟩ : ∃ (a : Fin 1) (r o : Fin 2048), i = ix3 a r o := ⟨i 0, i 1, i 2, eq_ix3 i⟩
  rw [unflat_apply, final4, out_last]
  rfl

/-- Every weakly fair execution of the program terminates with its result at the specification's function of the
    argument arrays, and the argument arrays unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Swiglu.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 (by decide) (by decide))).trans ((tail_v2 m c).trans (result_eq m c)),
      ((h c).2 main_arg0 (Pipeline.mem_restRefs_of main_arg0 (by decide) (by decide))).trans (W_main_arg0 m (dats m) c),
      ((h c).1 1).trans (((dats m 0 c).arrAt_in 1 rfl _).trans (V_main_arg1 m c)),
      ((h c).1 2).trans (((dats m 0 c).arrAt_in 2 rfl _).trans (V_main_arg2 m c)),
      ((h c).1 3).trans (((dats m 0 c).arrAt_in 3 rfl _).trans (V_main_arg3 m c))⟩) (run_main m ρ)

end Cert.KernelIdeal.Body

end
-- ==== Proof.lean ====
/-
  The kernel and the reference compute one function of the four argument arrays. For every row r of the 2048 × 2048
  input and every hidden unit h of the 8192, let g and u be the sums over the 2048 input entries of row r times row h of
  the gate and of the up weights; the hidden value is (g · logistic g) · u, and output entry (r, o) is the sum over all
  8192 hidden units of the hidden value times the down weight (o, h).

  The reference forms exactly this: it drops and restores the leading axis of extent one, transposes each weight matrix
  before contracting, and spells the logistic as 1 / (1 + exp (−g)), which is the logistic by definition.

  The kernel walks 32 grid points of 256 hidden units each. Every point computes its 256 hidden values for all rows,
  with the same products in the same association, and writes them into one half of a 2048 × 512 scratch; every second
  point adds to each output entry the sum, over the 512 hidden units the scratch then holds, of hidden value times down
  weight, starting from an output zeroed at the first point. So each output entry ends at zero plus sixteen block sums
  of 512 consecutive hidden units added in order, and that is the sum over all 8192 hidden units: regrouping a sum into
  consecutive blocks uses only that addition on the extended reals is associative and commutative. Narrowing to a
  shorter float format is the identity on the extended reals. No finiteness of any value is used anywhere: the two
  sides are the same expression of the same entries, not merely equal where defined.
-/
import proofs.«150734_g21122649162411_cont_8to1_2030_21_alg».proof.Defs
import proofs.«150734_g21122649162411_cont_8to1_2030_21_alg».proof.Proof.Gen.Kernel
import proofs.«150734_g21122649162411_cont_8to1_2030_21_alg».proof.Proof.Gen.KernelIdeal
import proofs.«150734_g21122649162411_cont_8to1_2030_21_alg».proof.Proof.Gen.ReferenceIdeal
import proofs.«150734_g21122649162411_cont_8to1_2030_21_alg».proof.Proof.Gen.Pre_finite_inputs
import proofs.«150734_g21122649162411_cont_8to1_2030_21_alg».proof.Proof.LaunchKernel
import proofs.«150734_g21122649162411_cont_8to1_2030_21_alg».proof.Proof.LaunchIdeal
import proofs.«150734_g21122649162411_cont_8to1_2030_21_alg».proof.Proof.Gen.ReferenceIdeal.Run
import proofs.«150734_g21122649162411_cont_8to1_2030_21_alg».proof.Proof.RefIsG
import proofs.«150734_g21122649162411_cont_8to1_2030_21_alg».proof.Proof.Spec
import proofs.«150734_g21122649162411_cont_8to1_2030_21_alg».proof.Proof.ValueIdeal

noncomputable section

namespace Cert.Proof

open Idealize.ShloMosaic Idealize.SL.Sem

/-- The kernel as printed runs to the end and leaves its arguments as it found them. -/
theorem frame_k : Cert.frame_Kernel := fun m ρ _ => Cert.Kernel.Body.frame (F := Bits) m ρ

/-- So does the kernel read over the extended reals. -/
theorem frame_ki : Cert.frame_KernelIdeal := fun m ρ _ => Cert.KernelIdeal.Body.frame (F := Ideal) m ρ

/-- So does the reference: its run states the arguments unchanged beside the result. -/
theorem frame_ri : Cert.frame_ReferenceIdeal := fun m ρ _ =>
  (θ_run Cert.ReferenceIdeal.defs _ _).mono (fun _ h c => (h c).2) (Cert.ReferenceIdeal.Value.run (F := Ideal) m ρ)

/-- The kernel's text was not rewritten for the extended reals; there is nothing to preserve. -/
theorem preserves : Cert.preserves_Kernel_KernelIdeal := trivial

/-- Over the extended reals, from memories that agree on the four arguments, the kernel's result array and the
    reference's both end at the one function `Cert.Swiglu.G` of the arguments. -/
theorem algebraic : Cert.algebraic_KernelIdeal_ReferenceIdeal := by
  intro m ρ m' ρ' _ hagree
  refine ⟨fun c => Cert.Swiglu.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Body.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.Swiglu.RefValue.result_eq, (hagree c).1, (hagree c).2.1, (hagree c).2.2.1, (hagree c).2.2.2]

/-- Everything the certificate claims, under the facts the generated modules prove of the programs. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
